-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000 : S_.BroadcastsInDim S400000 (![] : Fin 0 → Fin S400000.rank)
  reducesTo_S400000_S_d0 : S400000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S2x400000 32) (main_arg2 : FVec F S400000 .f32) (main_arg3 : IVec S1000 32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S1x256 : Shape := ⟨2, ![1, 256]⟩
abbrev S5000x256 : Shape := ⟨2, ![5000, 256]⟩
abbrev S_ : Shape := ⟨0, ![]⟩
abbrev S50000x1 : Shape := ⟨2, ![50000, 1]⟩
abbrev S2000x256 : Shape := ⟨2, ![2000, 256]⟩
abbrev S2000x1 : Shape := ⟨2, ![2000, 1]⟩
abbrev S2000 : Shape := ⟨1, ![2000]⟩
abbrev S50000 : Shape := ⟨1, ![50000]⟩
abbrev S1x400000 : Shape := ⟨2, ![1, 400000]⟩
abbrev S1000x1 : Shape := ⟨2, ![1000, 1]⟩
abbrev S400000x1 : Shape := ⟨2, ![400000, 1]⟩
abbrev S400000x256 : Shape := ⟨2, ![400000, 256]⟩

abbrev nBuf : Space → Nat
  | .hbm => 110
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S400000, .f32⟩
  | .hbm, ⟨3, _⟩ => ⟨S1000, .i32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x256, .f32⟩
  | .hbm, ⟨20, _⟩ => ⟨S1x256, .f32⟩
  | .hbm, ⟨21, _⟩ => ⟨S256x256, .f32⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S_, .i1⟩
  | .hbm, ⟨29, _⟩ => ⟨S256x256, .f32⟩
  | .hbm, ⟨30, _⟩ => ⟨S256x256, .f32⟩
  | .hbm, ⟨31, _⟩ => ⟨S50000x256, .f32⟩
  | .hbm, ⟨32, _⟩ => ⟨S50000x1, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S1x400000, .i32⟩
  | .hbm, ⟨39, _⟩ => ⟨S400000, .i32⟩
  | .hbm, ⟨40, _⟩ => ⟨S1x400000, .i32⟩
  | .hbm, ⟨41, _⟩ => ⟨S400000, .i32⟩
  | .hbm, ⟨42, _⟩ => ⟨S_, .i1⟩
  | .hbm, ⟨43, _⟩ => ⟨S50000, .i1⟩
  | .hbm, ⟨44, _⟩ => ⟨S_, .i32⟩
  | .hbm, ⟨45, _⟩ => ⟨S1000, .i32⟩
  | .hbm, ⟨46, _⟩ => ⟨S1000, .i1⟩
  | .hbm, ⟨47, _⟩ => ⟨S_, .i32⟩
  | .hbm, ⟨48, _⟩ => ⟨S1000, .i32⟩
  | .hbm, ⟨49, _⟩ => ⟨S1000, .i32⟩
  | .hbm, ⟨50, _⟩ => ⟨S1000, .i32⟩
  | .hbm, ⟨51, _⟩ => ⟨S1000x1, .i32⟩
  | .hbm, ⟨52, _⟩ => ⟨S_, .i1⟩
  | .hbm, ⟨53, _⟩ => ⟨S1000, .i1⟩
  | .hbm, ⟨54, _⟩ => ⟨S50000, .i1⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000, .i1⟩
  | .hbm, ⟨64, _⟩ => ⟨S400000, .i1⟩
  | .hbm, ⟨65, _⟩ => ⟨S400000, .i1⟩
  | .hbm, ⟨66, _⟩ => ⟨S400000, .f32⟩
  | .hbm, ⟨67, _⟩ => ⟨S_, .i32⟩
  | .hbm, ⟨68, _⟩ => ⟨S400000, .i32⟩
  | .hbm, ⟨69, _⟩ => ⟨S400000, .i1⟩
  | .hbm, ⟨70, _⟩ => ⟨S_, .i32⟩
  | .hbm, ⟨71, _⟩ => ⟨S400000, .i32⟩
  | .hbm, ⟨72, _⟩ => ⟨S400000, .i32⟩
  | .hbm, ⟨73, _⟩ => ⟨S400000, .i32⟩
  | .hbm, ⟨74, _⟩ => ⟨S400000x1, .i32⟩
  | .hbm, ⟨75, _⟩ => ⟨S400000, .f32⟩
  | .hbm, ⟨76, _⟩ => ⟨S400000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S400000, .f32⟩
  | .hbm, ⟨84, _⟩ => ⟨S400000, .i1⟩
  | .hbm, ⟨85, _⟩ => ⟨S400000, .i1⟩
  | .hbm, ⟨86, _⟩ => ⟨S400000, .i1⟩
  | .hbm, ⟨87, _⟩ => ⟨S_, .f32⟩
  | .hbm, ⟨88, _⟩ => ⟨S_, .f32⟩
  | .hbm, ⟨89, _⟩ => ⟨S400000, .f32⟩
  | .hbm, ⟨90, _⟩ => ⟨S400000, .f32⟩
  | .hbm, ⟨91, _⟩ => ⟨S400000x1, .f32⟩
  | .hbm, ⟨92, _⟩ => ⟨S_, .i32⟩
  | .hbm, ⟨93, _⟩ => ⟨S400000, .i32⟩
  | .hbm, ⟨94, _⟩ => ⟨S400000, .i1⟩
  | .hbm, ⟨95, _⟩ => ⟨S_, .i32⟩
  | .hbm, ⟨96, _⟩ => ⟨S400000, .i32⟩
  | .hbm, ⟨97, _⟩ => ⟨S400000, .i32⟩
  | .hbm, ⟨98, _⟩ => ⟨S400000, .i32⟩
  | .hbm, ⟨99, _⟩ => ⟨S400000x1, .i32⟩
  | .hbm, ⟨100, _⟩ => ⟨S400000x256, .f32⟩
  | .hbm, ⟨101, _⟩ => ⟨S400000x256, .f32⟩
  | .hbm, ⟨102, _⟩ => ⟨S400000x256, .f32⟩
  | .hbm, ⟨103, _⟩ => ⟨S_, .f32⟩
  | .hbm, ⟨104, _⟩ => ⟨S50000x256, .f32⟩
  | .hbm, ⟨105, _⟩ => ⟨S400000x1, .i32⟩
  | .hbm, ⟨106, _⟩ => ⟨S50000x256, .f32⟩
  | .hbm, ⟨107, _⟩ => ⟨S1x256, .f32⟩
  | .hbm, ⟨108, _⟩ => ⟨S50000x256, .f32⟩
  | .hbm, ⟨109, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S1x256, .f32⟩
  | .local _ .vmem, ⟨3, _⟩ => ⟨S2000x256, .f32⟩
  | .local _ .vmem, ⟨4, _⟩ => ⟨S2000x256, .f32⟩
  | .local _ .vmem, ⟨5, _⟩ => ⟨S256x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256_S1x256_0_0 : ∀ a, (![0, 0] : Fin 2 → Nat) a + S1x256.size a ≤ S1x256.size a
  h_S1x256 : 0 < S1x256.numel
  inb_S5000x256_S5000x256_0_0 : ∀ a, (![0, 0] : Fin 2 → Nat) a + S5000x256.size a ≤ S5000x256.size a
  h_S5000x256 : 0 < S5000x256.numel
  shapeCasts_S1x256_S1x256 : S1x256.ShapeCasts S1x256
  reduces_S5000x256_S256 : S5000x256.Reduces [0] S256
  shapeCasts_S256_S1x256 : S256.ShapeCasts S1x256
  shapeCasts_S1x256_S256 : S1x256.ShapeCasts S256
  reducesTo_S256_S_d0 : S256.ReducesTo [0] S_
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  bcast_S_S50000 : S_.BroadcastsInDim S50000 (![] : Fin 0 → Fin S50000.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S1000 : S_.BroadcastsInDim S1000 (![] : Fin 0 → Fin S1000.rank)
  bcast_S1000_S1000x1_0 : S1000.BroadcastsInDim S1000x1 (![0] : Fin 1 → Fin S1000x1.rank)
  bcast_S_S400000 : S_.BroadcastsInDim S400000 (![] : Fin 0 → Fin S400000.rank)
  bcast_S400000_S400000x1_0 : S400000.BroadcastsInDim S400000x1 (![0] : Fin 1 → Fin S400000x1.rank)
  reducesTo_S400000_S_d0 : S400000.ReducesTo [0] S_
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  dot_S2000x256_S256x256_S2000x256_1_0_0_1_n_n_wf : DotDims.WF S2000x256 S256x256 S2000x256 [1] [0] [0] [1] [] []
  scatter_S50000_S1000x1_S1000_n_0_0_1_wf : ScatterDims.WF S50000 S1000x1 S1000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000_S1000x1_S1000_n_0_0_1 : ScatterDims S50000 S1000x1 S1000 where
  updateWindowDims := []
  insertedWindowDims := [0]
  scatterDimsToOperandDims := [0]
  indexVectorDim := 1
  wf := scatter_S50000_S1000x1_S1000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_1) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x400000 : Shape := ⟨2, ![1, 400000]⟩
abbrev S50000 : Shape := ⟨1, ![50000]⟩
abbrev S1000x1 : Shape := ⟨2, ![1000, 1]⟩
abbrev S400000x1 : Shape := ⟨2, ![400000, 1]⟩
abbrev S400000x256 : Shape := ⟨2, ![400000, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S400000, .f32⟩
  | .hbm, ⟨3, _⟩ => ⟨S1000, .i32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256x256, .f32⟩
  | .hbm, ⟨21, _⟩ => ⟨S1x256, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S_, .i1⟩
  | .hbm, ⟨30, _⟩ => ⟨S256x256, .f32⟩
  | .hbm, ⟨31, _⟩ => ⟨S256x256, .f32⟩
  | .hbm, ⟨32, _⟩ => ⟨S50000x256, .f32⟩
  | .hbm, ⟨33, _⟩ => ⟨S1x400000, .i32⟩
  | .hbm, ⟨34, _⟩ => ⟨S400000, .i32⟩
  | .hbm, ⟨35, _⟩ => ⟨S1x400000, .i32⟩
  | .hbm, ⟨36, _⟩ => ⟨S400000, .i32⟩
  | .hbm, ⟨37, _⟩ => ⟨S_, .i1⟩
  | .hbm, ⟨38, _⟩ => ⟨S50000, .i1⟩
  | .hbm, ⟨39, _⟩ => ⟨S_, .i32⟩
  | .hbm, ⟨40, _⟩ => ⟨S1000, .i32⟩
  | .hbm, ⟨41, _⟩ => ⟨S1000, .i1⟩
  | .hbm, ⟨42, _⟩ => ⟨S_, .i32⟩
  | .hbm, ⟨43, _⟩ => ⟨S1000, .i32⟩
  | .hbm, ⟨44, _⟩ => ⟨S1000, .i32⟩
  | .hbm, ⟨45, _⟩ => ⟨S1000, .i32⟩
  | .hbm, ⟨46, _⟩ => ⟨S1000x1, .i32⟩
  | .hbm, ⟨47, _⟩ => ⟨S_, .i1⟩
  | .hbm, ⟨48, _⟩ => ⟨S1000, .i1⟩
  | .hbm, ⟨49, _⟩ => ⟨S50000, .i1⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000, .i1⟩
  | .hbm, ⟨59, _⟩ => ⟨S400000, .i1⟩
  | .hbm, ⟨60, _⟩ => ⟨S400000, .i1⟩
  | .hbm, ⟨61, _⟩ => ⟨S400000x1, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S400000x256, .f32⟩
  | .hbm, ⟨71, _⟩ => ⟨S400000x256, .f32⟩
  | .hbm, ⟨72, _⟩ => ⟨S400000x256, .f32⟩
  | .hbm, ⟨73, _⟩ => ⟨S400000x256, .f32⟩
  | .hbm, ⟨74, _⟩ => ⟨S_, .f32⟩
  | .hbm, ⟨75, _⟩ => ⟨S400000, .f32⟩
  | .hbm, ⟨76, _⟩ => ⟨S400000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S400000, .f32⟩
  | .hbm, ⟨84, _⟩ => ⟨S400000, .i1⟩
  | .hbm, ⟨85, _⟩ => ⟨S400000, .i1⟩
  | .hbm, ⟨86, _⟩ => ⟨S400000, .i1⟩
  | .hbm, ⟨87, _⟩ => ⟨S400000x1, .i1⟩
  | .hbm, ⟨88, _⟩ => ⟨S_, .f32⟩
  | .hbm, ⟨89, _⟩ => ⟨S_, .f32⟩
  | .hbm, ⟨90, _⟩ => ⟨S400000x256, .i1⟩
  | .hbm, ⟨91, _⟩ => ⟨S400000x256, .f32⟩
  | .hbm, ⟨92, _⟩ => ⟨S400000x256, .f32⟩
  | .hbm, ⟨93, _⟩ => ⟨S_, .f32⟩
  | .hbm, ⟨94, _⟩ => ⟨S50000x256, .f32⟩
  | .hbm, ⟨95, _⟩ => ⟨S400000x1, .i32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v0 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call4_v0 : Ref sig .tc := ⟨.hbm, 73, rfl⟩
abbrev main_call4_cst : Ref sig .tc := ⟨.hbm, 74, rfl⟩
abbrev main_call4_v1 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩

abbrev nD : Nat := 1
abbrev τ : Topo := Topo.v7x

variable {F : FTy → Type} [FloatOps F]

class Facts₀ : Prop where
  reducesTo_S50000x256_S256_d0 : S50000x256.ReducesTo [0] S256
  h_S_ : 0 < S_.numel
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  transposes_S256x256_S256x256_1_0 : S256x256.Transposes [1, 0] S256x256
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  reducesTo_S400000x256_S400000_d1 : S400000x256.ReducesTo [1] S400000
  reducesTo_S400000_S_d0 : S400000.ReducesTo [0] S_
  bcast_S_S400000x256 : S_.BroadcastsInDim S400000x256 (![] : Fin 0 → Fin S400000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S1000x1_S1000_n_0_0_1_wf : ScatterDims.WF S50000 S1000x1 S1000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S1000x1_S1000_n_0_0_1 : ScatterDims S50000 S1000x1 S1000 where
  updateWindowDims := []
  insertedWindowDims := [0]
  scatterDimsToOperandDims := [0]
  indexVectorDim := 1
  wf := scatter_S50000_S1000x1_S1000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

class Facts : Prop extends Facts₀ where

variable [Facts]
-- ==== Proof.KernelRun.lean ====
/-
  The idealized kernel program's run, with EVERY unscoped buffer named at its final contents.

  @main is twelve segments on each core: the column-norm region, seven stretches of host operations, the matmul
  region, three more stretches. The contents of the core's buffers at each boundary are a fold from the launch
  memory: a stretch applies its operations in order; a region leaves its windows' arrays at what its write-backs
  fold to and every other buffer as it found it. Launched from any memory with zero counters, every weakly fair
  execution terminates without a fault, and the final memory holds, at every unscoped buffer, the last boundary's
  contents. The argument arrays and the result array are then read off that one statement.
-/
import proofs.«126413_j33191507263709_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement, which takes
-- unfolding plain definitions in a metavariable's type
set_option backward.isDefEq.respectTransparency.types false in
/-- Every weakly fair execution of @main terminates, nothing faulting, and the final memory holds each unscoped
    buffer of each core at the contents the fold through the twelve segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      -- the last stretch's state, regrouped: the buffers and the generator register on one side, what is owed on the other
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- what the launch deals on each core: its unscoped buffers at the launch memory, its generator register, nothing owed
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      -- buffers held whole at given contents, beside a final state's interpretation, say what that state's memory holds
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result array after the run: the last boundary's contents at @main's result buffer. -/
theorem run_result : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v75 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c)⟩) (run_all m ρ)

end Cert.KernelIdeal.Run

end
-- ==== Proof.HostChain.lean ====
/-
  The idealized kernel program's host operations as a few named functions, and the buffers they leave.

  Between the two regions the host turns the column sums of squares `s` into the pruned, transposed weight: with
  `n = √s` (one norm per input column) and `a = ‖n‖ / 256`, an entry `W[o, i]` is zeroed when `|W[o, i]| < 0.1·a / n[i]`,
  unless `a ≤ 1e-8`, and the result is transposed (`weffT`). After the second region the host gathers, per edge, the
  source row of `h` and the source row's norm `√(max hn2 0)`, forms the edge's message norm `|w|·‖h[src]‖`, zeroes the
  weight of every edge whose message norm is under a tenth of the mean and whose destination is not locked and which is
  not a self loop, scales the gathered rows by the weights, scatter-adds them to their destinations and adds the bias
  (`resultK`). The functions shared with the reference program (`lockNot`, `maskOf`, `rows`, `finish`) are stated once, here.
-/
import proofs.«126413_j33191507263709_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-! ## Between the regions: the pruned weight, transposed -/

/-- `‖n‖ / 256` of the vector of column norms. -/
def normAll (n : (⟨S256, .f32⟩ : BufTy).Contents (Elt F)) : (⟨S_, .f32⟩ : BufTy).Contents (Elt F) :=
  Host.divf (Host.sqrt (Host.reduceAdd (mulf n n) (constant S_ .f32 0x00000000#32) reducesTo_S256_S_d0 h_S_))
    (constant S_ .f32 0x43800000#32)

/-- `W` with every entry under its column's threshold `0.1·a / n[i]` zeroed. -/
def pruned (n : (⟨S256, .f32⟩ : BufTy).Contents (Elt F)) (W : (⟨S256x256, .f32⟩ : BufTy).Contents (Elt F)) :
    (⟨S256x256, .f32⟩ : BufTy).Contents (Elt F) :=
  select (cmpf .olt (Host.absf W)
      (broadcastInDim S256x256 ![0, 1] bcast_S1x256_S256x256_0_1 (broadcastInDim S1x256 ![1] bcast_S256_S1x256_1
        (Host.divf (broadcastInDim S256 ![] bcast_S_S256 (mulf (constant S_ .f32 0x3DCCCCCD#32) (normAll n))) n))))
    (broadcastInDim S256x256 ![] bcast_S_S256x256 (id (constant S_ .f32 0x00000000#32))) W

/-- The effective weight, transposed: the pruned one when `a > 1e-8`, else `W` itself. -/
def weffT (n : (⟨S256, .f32⟩ : BufTy).Contents (Elt F)) (W : (⟨S256x256, .f32⟩ : BufTy).Contents (Elt F)) :
    (⟨S256x256, .f32⟩ : BufTy).Contents (Elt F) :=
  transpose S256x256 [1, 0]
    (select (broadcastInDim S256x256 ![] bcast_S_S256x256 (cmpf .ogt (normAll n) (constant S_ .f32 0x322BCC77#32))) (pruned n W) W)
    transposes_S256x256_S256x256_1_0

/-! ## After the second region: the edges -/

/-- The edges' sources, and their destinations: rows 0 and 1 of the edge list. -/
def srcV (ei : (⟨S2x400000, .i32⟩ : BufTy).Contents (Elt F)) : (⟨S400000, .i32⟩ : BufTy).Contents (Elt F) :=
  shapeCast _ (extractStridedSlice S1x400000 ![0, 0] ei slices_S2x400000_S1x400000_0_0) shapeCasts_S1x400000_S400000
def dstV (ei : (⟨S2x400000, .i32⟩ : BufTy).Contents (Elt F)) : (⟨S400000, .i32⟩ : BufTy).Contents (Elt F) :=
  shapeCast _ (extractStridedSlice S1x400000 ![1, 0] ei slices_S2x400000_S1x400000_1_0) shapeCasts_S1x400000_S400000

/-- A vector of node numbers as a column of start indices: a negative one counted from the end. -/
def wrapIx (v : (⟨S400000, .i32⟩ : BufTy).Contents (Elt F)) : (⟨S400000x1, .i32⟩ : BufTy).Contents (Elt F) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- The locked nodes: a flag per node, set at every node the lock list names. -/
def locked (nl : (⟨S1000, .i32⟩ : BufTy).Contents (Elt F)) : (⟨S50000, .i1⟩ : BufTy).Contents (Elt F) :=
  Host.scatter scatter_S50000_S1000x1_S1000_n_0_0_1 (fun _ b => b)
    (broadcastInDim S50000 ![] bcast_S_S50000 (constantI S_ 1 0#1))
    (broadcastInDim S1000x1 ![0] bcast_S1000_S1000x1_0
      (select (cmpi .slt nl (broadcastInDim S1000 ![] bcast_S_S1000 (constantI S_ 32 0#32)))
        (addi nl (broadcastInDim S1000 ![] bcast_S_S1000 (constantI S_ 32 50000#32))) nl))
    (broadcastInDim S1000 ![] bcast_S_S1000 (constantI S_ 1 1#1))

/-- Per edge: its destination is NOT locked and it is NOT a self loop. -/
def lockNot (ei : (⟨S2x400000, .i32⟩ : BufTy).Contents (Elt F)) (nl : (⟨S1000, .i32⟩ : BufTy).Contents (Elt F)) :
    (⟨S400000, .i1⟩ : BufTy).Contents (Elt F) :=
  noti (ori (Host.gather gather_S50000_S400000x1_S400000_n_0_n_n_0_1_1 (locked nl) (wrapIx (dstV ei)))
    (cmpi .eq (srcV ei) (dstV ei)))

/-- Per edge: its message norm is under a tenth of the mean message norm, and the edge may be pruned. -/
def maskOf (nfm : (⟨S400000, .f32⟩ : BufTy).Contents (Elt F)) (ln : (⟨S400000, .i1⟩ : BufTy).Contents (Elt F)) :
    (⟨S400000, .i1⟩ : BufTy).Contents (Elt F) :=
  andi (cmpf .olt nfm (broadcastInDim S400000 ![] bcast_S_S400000 (mulf (constant S_ .f32 0x3DCCCCCD#32)
    (Host.divf (Host.reduceAdd nfm (constant S_ .f32 0x00000000#32) reducesTo_S400000_S_d0 h_S_) (constant S_ .f32 0x48C35000#32))))) ln

/-- Per edge, its source's row of `h`. -/
def rows (h : (⟨S50000x256, .f32⟩ : BufTy).Contents (Elt F)) (ei : (⟨S2x400000, .i32⟩ : BufTy).Contents (Elt F)) :
    (⟨S400000x256, .f32⟩ : BufTy).Contents (Elt F) :=
  Host.gather gather_S50000x256_S400000x1_S400000x256_1_0_n_n_0_1_1256 h (wrapIx (srcV ei))

/-- The per-edge rows summed into their destinations' rows, plus the bias. -/
def finish (upd : (⟨S400000x256, .f32⟩ : BufTy).Contents (Elt F)) (ei : (⟨S2x400000, .i32⟩ : BufTy).Contents (Elt F))
    (b : (⟨S256, .f32⟩ : BufTy).Contents (Elt F)) : (⟨S50000x256, .f32⟩ : BufTy).Contents (Elt F) :=
  addf (Host.scatterAdd scatter_S50000x256_S400000x1_S400000x256_1_0_0_1
      (broadcastInDim S50000x256 ![] bcast_S_S50000x256 (constant S_ .f32 0x00000000#32))
      (broadcastInDim S400000x1 ![0] bcast_S400000_S400000x1_0 (dstV ei)) upd)
    (broadcastInDim S50000x256 ![0, 1] bcast_S1x256_S50000x256_0_1 (broadcastInDim S1x256 ![1] bcast_S256_S1x256_1 b))

/-- A node's feature norm from its row's sum of squares: `√(max hn2 0)`. -/
def hnormOf (hn2 : (⟨S50000x1, .f32⟩ : BufTy).Contents (Elt F)) : (⟨S50000, .f32⟩ : BufTy).Contents (Elt F) :=
  Host.sqrt (maximumf (shapeCast _ hn2 shapeCasts_S50000x1_S50000)
    (broadcastInDim S50000 ![] bcast_S_S50000 (constant S_ .f32 0x00000000#32)))

/-- The kernel program's message norm per edge: `|w| · ‖h[src]‖`. -/
def nfmK (hn2 : (⟨S50000x1, .f32⟩ : BufTy).Contents (Elt F)) (ei : (⟨S2x400000, .i32⟩ : BufTy).Contents (Elt F))
    (ew : (⟨S400000, .f32⟩ : BufTy).Contents (Elt F)) : (⟨S400000, .f32⟩ : BufTy).Contents (Elt F) :=
  mulf (Host.absf ew) (Host.gather gather_S50000_S400000x1_S400000_n_0_n_n_0_1_1 (hnormOf hn2) (wrapIx (srcV ei)))

/-- The kernel program's per-edge rows: the weight zeroed on the pruned edges, times the source's row. -/
def updK (h : (⟨S50000x256, .f32⟩ : BufTy).Contents (Elt F)) (hn2 : (⟨S50000x1, .f32⟩ : BufTy).Contents (Elt F))
    (ei : (⟨S2x400000, .i32⟩ : BufTy).Contents (Elt F)) (ew : (⟨S400000, .f32⟩ : BufTy).Contents (Elt F))
    (nl : (⟨S1000, .i32⟩ : BufTy).Contents (Elt F)) : (⟨S400000x256, .f32⟩ : BufTy).Contents (Elt F) :=
  mulf (broadcastInDim S400000x256 ![0, 1] bcast_S400000x1_S400000x256_0_1 (broadcastInDim S400000x1 ![0] bcast_S400000_S400000x1_0
      (select (maskOf (nfmK hn2 ei ew) (lockNot ei nl))
        (broadcastInDim S400000 ![] bcast_S_S400000 (id (constant S_ .f32 0x00000000#32))) ew)))
    (rows h ei)

/-- The kernel program's result, from the second region's two arrays and the arguments. -/
def resultK (h : (⟨S50000x256, .f32⟩ : BufTy).Contents (Elt F)) (hn2 : (⟨S50000x1, .f32⟩ : BufTy).Contents (Elt F))
    (ei : (⟨S2x400000, .i32⟩ : BufTy).Contents (Elt F)) (ew : (⟨S400000, .f32⟩ : BufTy).Contents (Elt F))
    (nl : (⟨S1000, .i32⟩ : BufTy).Contents (Elt F)) (b : (⟨S256, .f32⟩ : BufTy).Contents (Elt F)) :
    (⟨S50000x256, .f32⟩ : BufTy).Contents (Elt F) :=
  finish (updK h hn2 ei ew nl) ei b

/-! ## What the buffers hold at the boundaries -/

variable (m : (ℓ : Loc nD τ sig) → Buf (Elt F) ℓ) (ρ : Dev nD → PrngReg)

/-- No operation of a stretch writes the buffer: the stretch leaves it as it was. -/
local macro "kept_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first region's output array at its exit. -/
theorem W1_colsum (c : Dev nD) : W1 m ρ c (Proc.devRef .tc main_v0) = (dat0 (V0 m ρ) c).arrAt 1 cfg0.N := W1_arr m ρ c 1

/-- The first region leaves the weight argument as launched. -/
theorem W1_arg4 (c : Dev nD) : W1 m ρ c (Proc.devRef .tc main_arg4) = m ((c : Thread nD τ).loc main_arg4) :=
  W1_of_ne m ρ c main_arg4 (by decide)

/-- The second region's weight operand at its entry: the pruned weight, transposed, of the first region's array. -/
theorem W8_weight (c : Dev nD) : W8 m ρ c (Proc.devRef .tc main_v15)
    = weffT (Host.sqrt (shapeCast _ (W1 m ρ c (Proc.devRef .tc main_v0)) shapeCasts_S1x256_S256))
        (W1 m ρ c (Proc.devRef .tc main_arg4)) := by
  dsimp only [W8, W7, W6, W5, W4, W3, W2, hostOps1, hostOps1_1, hostOps1_2, hostOps1_3, hostOps1_4, hostOps1_5, hostOps1_6]
  after_results_simp
  rfl

/-- A buffer neither region 0 nor any stretch before region 1 writes holds the launch memory at region 1's entry. -/
theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := by kept_by hostOps1_6
    _ = W6 m ρ c (Proc.devRef .tc main_arg0) := by kept_by hostOps1_5
    _ = W5 m ρ c (Proc.devRef .tc main_arg0) := by kept_by hostOps1_4
    _ = W4 m ρ c (Proc.devRef .tc main_arg0) := by kept_by hostOps1_3
    _ = W3 m ρ c (Proc.devRef .tc main_arg0) := by kept_by hostOps1_2
    _ = W2 m ρ c (Proc.devRef .tc main_arg0) := by kept_by hostOps1_1
    _ = W1 m ρ c (Proc.devRef .tc main_arg0) := by kept_by hostOps1
    _ = m ((c : Thread nD τ).loc main_arg0) :=
        (W1_arr m ρ c 0).trans (((dat0 (V0 m ρ) c).arrAt_in 0 rfl _).trans (A_eq0 (V0 m ρ) c 0))

-- seventy-seven operations read back in one pass: past the default budget
set_option maxHeartbeats 40000000 in
/-- The result buffer at the last boundary: the host's closing computation of the second region's two arrays and the
    arguments as the second region leaves them. -/
theorem W12_result (c : Dev nD) : W12 m ρ c (Proc.devRef .tc main_v75)
    = resultK (W9 m ρ c (Proc.devRef .tc main_v16_0)) (W9 m ρ c (Proc.devRef .tc main_v16_1))
        (W9 m ρ c (Proc.devRef .tc main_arg1)) (W9 m ρ c (Proc.devRef .tc main_arg2))
        (W9 m ρ c (Proc.devRef .tc main_arg3)) (W9 m ρ c (Proc.devRef .tc main_arg5)) := by
  dsimp only [W12, W11, W10, hostOps2, hostOps2_1, hostOps2_2]
  after_results_simp
  rfl

end Cert.KernelIdeal.Chain

end
-- ==== Proof.RefChain.lean ====
/-
  The reference program's result as the same few functions of its arguments.

  The reference takes the column norms `n = √(∑ x²)` directly, forms the same pruned, transposed weight from them,
  multiplies `h = x · weffT`, scales every edge's source row by the edge's weight BEFORE taking its norm
  (`√(∑ (w·h[src])²)`), masks by the same rule, zeroes the whole scaled row of a pruned edge, and ends in the same
  scatter-add and bias. Its run's composed term is `resultR` of the argument arrays, by unfolding.
-/
import proofs.«126413_j33191507263709_2_alg».proof.Proof.Gen.ReferenceIdeal.Run
import proofs.«126413_j33191507263709_2_alg».proof.Proof.HostChain

set_option maxRecDepth 16384

noncomputable section

namespace Cert.ReferenceIdeal.RefChain

open Cert.ReferenceIdeal Cert.ReferenceIdeal.Gen
open Idealize.ShloMosaic Idealize.ShloMosaic.TcCoe Idealize.SL.Sem Idealize.ShloMosaic.StableHlo
open Cert.KernelIdeal.Chain (weffT lockNot maskOf rows finish)

variable {F : FTy → Type} [FloatOps F]

/-- The column norms of `x`. -/
def colNorm (x : (⟨S50000x256, .f32⟩ : BufTy).Contents (Elt F)) : (⟨S256, .f32⟩ : BufTy).Contents (Elt F) :=
  Host.sqrt (Host.reduceAdd (mulf x x) (constant S_ .f32 0x00000000#32) reducesTo_S50000x256_S256_d0 h_S_)

/-- `h = x · weffT`. -/
def hR (x : (⟨S50000x256, .f32⟩ : BufTy).Contents (Elt F)) (W : (⟨S256x256, .f32⟩ : BufTy).Contents (Elt F)) :
    (⟨S50000x256, .f32⟩ : BufTy).Contents (Elt F) :=
  Host.dotGeneral dot_S50000x256_S256x256_S50000x256_1_0_0_1_n_n none x (weffT (colNorm x) W)

/-- Per edge, its source's row of `h` scaled by the edge's weight. -/
def scaledRows (h : (⟨S50000x256, .f32⟩ : BufTy).Contents (Elt F)) (ei : (⟨S2x400000, .i32⟩ : BufTy).Contents (Elt F))
    (ew : (⟨S400000, .f32⟩ : BufTy).Contents (Elt F)) : (⟨S400000x256, .f32⟩ : BufTy).Contents (Elt F) :=
  mulf (broadcastInDim S400000x256 ![0, 1] bcast_S400000x1_S400000x256_0_1 (broadcastInDim S400000x1 ![0] bcast_S400000_S400000x1_0 ew))
    (rows h ei)

/-- The reference's message norm per edge: the norm of the scaled row. -/
def nfmR (h : (⟨S50000x256, .f32⟩ : BufTy).Contents (Elt F)) (ei : (⟨S2x400000, .i32⟩ : BufTy).Contents (Elt F))
    (ew : (⟨S400000, .f32⟩ : BufTy).Contents (Elt F)) : (⟨S400000, .f32⟩ : BufTy).Contents (Elt F) :=
  Host.sqrt (Host.reduceAdd (mulf (scaledRows h ei ew) (scaledRows h ei ew)) (constant S_ .f32 0x00000000#32)
    reducesTo_S400000x256_S400000_d1 h_S_)

/-- The reference's per-edge rows: the scaled row, zeroed whole on the pruned edges. -/
def updR (h : (⟨S50000x256, .f32⟩ : BufTy).Contents (Elt F)) (ei : (⟨S2x400000, .i32⟩ : BufTy).Contents (Elt F))
    (ew : (⟨S400000, .f32⟩ : BufTy).Contents (Elt F)) (nl : (⟨S1000, .i32⟩ : BufTy).Contents (Elt F)) :
    (⟨S400000x256, .f32⟩ : BufTy).Contents (Elt F) :=
  select (broadcastInDim S400000x256 ![0, 1] bcast_S400000x1_S400000x256_0_1 (broadcastInDim S400000x1 ![0] bcast_S400000_S400000x1_0
      (maskOf (nfmR h ei ew) (lockNot ei nl))))
    (broadcastInDim S400000x256 ![] bcast_S_S400000x256 (id (constant S_ .f32 0x00000000#32)))
    (scaledRows h ei ew)

/-- The reference's result, from the arguments. -/
def resultR (x : (⟨S50000x256, .f32⟩ : BufTy).Contents (Elt F)) (ei : (⟨S2x400000, .i32⟩ : BufTy).Contents (Elt F))
    (ew : (⟨S400000, .f32⟩ : BufTy).Contents (Elt F)) (nl : (⟨S1000, .i32⟩ : BufTy).Contents (Elt F))
    (W : (⟨S256x256, .f32⟩ : BufTy).Contents (Elt F)) (b : (⟨S256, .f32⟩ : BufTy).Contents (Elt F)) :
    (⟨S50000x256, .f32⟩ : BufTy).Contents (Elt F) :=
  finish (updR (hR x W) ei ew nl) ei b

set_option maxHeartbeats 4000000 in
/-- The run's composed term is `resultR` of the argument arrays. -/
theorem res_eq (m : (ℓ : Loc nD τ sig) → Buf (Elt F) ℓ) (c : Dev nD) :
    Cert.ReferenceIdeal.Value.res_main_v62 m c
      = resultR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v62
  rfl

end Cert.ReferenceIdeal.RefChain

end
-- ==== Proof.Finite.lean ====
/-
  What the precondition gives: every entry of the three float arrays the bridge multiplies is a REAL number.

  The precondition is the conjunction, over the four float arguments, of "every entry's absolute value is below +∞".
  An extended real whose absolute value `max v (-v)` is below `⊤` is neither infinity, hence a real. The bias enters
  both programs in one final addition, so its finiteness is not needed.
-/
import proofs.«126413_j33191507263709_2_alg».proof.Pre_finite_inputs
import proofs.«126413_j33191507263709_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The pattern of +∞ denotes `⊤`. -/
theorem top_word : Ideal.ofBits .f32 0x7F800000#32 = (⊤ : EReal) := by
  simp [Ideal.ofBits, Ideal.ieee]

/-- An extended real whose absolute value compares below +∞ is a real. -/
theorem real_of_abs_lt_top (v : EReal)
    (h : Ideal.cmp .olt (max v (-v)) (Ideal.ofBits .f32 0x7F800000#32) = 1#1) : ∃ r : ℝ, v = (r : EReal) := by
  rw [top_word] at h
  have hlt : max v (-v) < ⊤ := by
    by_contra hn
    simp [Ideal.cmp, hn] at h
  induction v using EReal.rec with
  | bot => simp at hlt
  | coe r => exact ⟨r, rfl⟩
  | top => simp at hlt

/-- From the precondition: every entry of `x`, of the edge weights and of `W` is a real. -/
theorem reals_of_pre (x : FVec Ideal S50000x256 .f32) (ei : IVec S2x400000 32) (ew : FVec Ideal S400000 .f32)
    (nl : IVec S1000 32) (W : FVec Ideal S256x256 .f32) (b : FVec Ideal S256 .f32)
    (h : fn (F := Ideal) x ei ew nl W b = fun _ => 1#1) :
    (∀ i, ∃ r : ℝ, x i = (r : EReal)) ∧ (∀ i, ∃ r : ℝ, ew i = (r : EReal)) ∧ (∀ i, ∃ r : ℝ, W i = (r : EReal)) := by
  have h0 := congrFun h ValueIdx.ix0
  dsimp only [fn, fn_part1, andi] at h0
  obtain ⟨h123, -⟩ := IntOp.andi_eq_one.mp h0
  obtain ⟨h12, h3⟩ := IntOp.andi_eq_one.mp h123
  obtain ⟨h1, h2⟩ := IntOp.andi_eq_one.mp h12
  refine ⟨fun i => real_of_abs_lt_top _ ?_, fun i => real_of_abs_lt_top _ ?_, fun i => real_of_abs_lt_top _ ?_⟩
  · exact Host.reduce_andi_all _ _ _ _ _ h1 i
  · exact Host.reduce_andi_all _ _ _ _ _ h2 i
  · exact Host.reduce_andi_all _ _ _ _ _ h3 i

end Cert.Pre_finite_inputs.Finite

end
-- ==== Proof.Args.lean ====
/-
  The argument buffers the host's closing computation reads are, at the second region's exit, still the launch memory:
  a region rewrites only its own windows' arrays, and a stretch of host operations only its operations' results.
-/
import proofs.«126413_j33191507263709_2_alg».proof.Proof.Gen.KernelIdeal.Frame

set_option maxRecDepth 16384

noncomputable section

namespace Cert.KernelIdeal.Args

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of a stretch writes the buffer: the stretch leaves it as it was. -/
local macro "kept_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `arg1` is written by neither region nor by any stretch before the second region's exit: it is still as launched. -/
theorem W9_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := by kept_by hostOps1_6
    _ = W6 m ρ c (Proc.devRef .tc main_arg1) := by kept_by hostOps1_5
    _ = W5 m ρ c (Proc.devRef .tc main_arg1) := by kept_by hostOps1_4
    _ = W4 m ρ c (Proc.devRef .tc main_arg1) := by kept_by hostOps1_3
    _ = W3 m ρ c (Proc.devRef .tc main_arg1) := by kept_by hostOps1_2
    _ = W2 m ρ c (Proc.devRef .tc main_arg1) := by kept_by hostOps1_1
    _ = W1 m ρ c (Proc.devRef .tc main_arg1) := by kept_by hostOps1
    _ = m ((c : Thread nD τ).loc main_arg1) := W1_of_ne m ρ c main_arg1 (by decide)

/-- `arg2` is written by neither region nor by any stretch before the second region's exit: it is still as launched. -/
theorem W9_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := by kept_by hostOps1_6
    _ = W6 m ρ c (Proc.devRef .tc main_arg2) := by kept_by hostOps1_5
    _ = W5 m ρ c (Proc.devRef .tc main_arg2) := by kept_by hostOps1_4
    _ = W4 m ρ c (Proc.devRef .tc main_arg2) := by kept_by hostOps1_3
    _ = W3 m ρ c (Proc.devRef .tc main_arg2) := by kept_by hostOps1_2
    _ = W2 m ρ c (Proc.devRef .tc main_arg2) := by kept_by hostOps1_1
    _ = W1 m ρ c (Proc.devRef .tc main_arg2) := by kept_by hostOps1
    _ = m ((c : Thread nD τ).loc main_arg2) := W1_of_ne m ρ c main_arg2 (by decide)

/-- `arg3` is written by neither region nor by any stretch before the second region's exit: it is still as launched. -/
theorem W9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := by kept_by hostOps1_6
    _ = W6 m ρ c (Proc.devRef .tc main_arg3) := by kept_by hostOps1_5
    _ = W5 m ρ c (Proc.devRef .tc main_arg3) := by kept_by hostOps1_4
    _ = W4 m ρ c (Proc.devRef .tc main_arg3) := by kept_by hostOps1_3
    _ = W3 m ρ c (Proc.devRef .tc main_arg3) := by kept_by hostOps1_2
    _ = W2 m ρ c (Proc.devRef .tc main_arg3) := by kept_by hostOps1_1
    _ = W1 m ρ c (Proc.devRef .tc main_arg3) := by kept_by hostOps1
    _ = m ((c : Thread nD τ).loc main_arg3) := W1_of_ne m ρ c main_arg3 (by decide)

/-- `arg5` is written by neither region nor by any stretch before the second region's exit: it is still as launched. -/
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := by kept_by hostOps1_6
    _ = W6 m ρ c (Proc.devRef .tc main_arg5) := by kept_by hostOps1_5
    _ = W5 m ρ c (Proc.devRef .tc main_arg5) := by kept_by hostOps1_4
    _ = W4 m ρ c (Proc.devRef .tc main_arg5) := by kept_by hostOps1_3
    _ = W3 m ρ c (Proc.devRef .tc main_arg5) := by kept_by hostOps1_2
    _ = W2 m ρ c (Proc.devRef .tc main_arg5) := by kept_by hostOps1_1
    _ = W1 m ρ c (Proc.devRef .tc main_arg5) := by kept_by hostOps1
    _ = m ((c : Thread nD τ).loc main_arg5) := W1_of_ne m ρ c main_arg5 (by decide)

end Cert.KernelIdeal.Args

end
-- ==== Proof.LibGatherRows.lean ====
/-
  Two gathers through ONE column of start indices, read at an index.

  `x[idx]` of a flat array `x : [N]` and `h[idx]` of a table `h : [N, K]`, both at an index column
  `idx : [P, 1]` (collapsed axis 0, start index map [0], index vector on axis 1; slice sizes [1] and [1, K]):
  element `e` of the first is `x` at the row the word `idx[e, 0]` selects — read signed and clamped into
  `[0, N − 1]` — and element `(e, c)` of the second is `h` at that SAME row and column `c`.
-/
import Idealize.ShloMosaic.Lib.ValueIdx

noncomputable section

namespace Cert.LibGatherRows

open Idealize.ShloMosaic Idealize.ShloMosaic.ValueIdx

variable {α : Type}

/-- The row a start-index word selects among `N` rows: the word read signed, clamped into `[0, N − 1]`. -/
def rowOf (N : Nat) (hN : 0 < N) {w : Nat} (v : BitVec w) : Fin N := ⟨min v.toInt.toNat (N - 1), by omega⟩

/-- Position `[e, 0]` of the index column. -/
abbrev at0 {P : Nat} (e : Fin P) : (⟨2, ![P, 1]⟩ : Shape).Idx := ix2 e (⟨0, Nat.one_pos⟩ : Fin 1)

/-- The dimension numbers of the scalar pick `[N]` at `[P, 1]` into `[P]`. -/
abbrev pickDims (N P : Nat) (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The dimension numbers of the row pick `[N, K]` at `[P, 1]` into `[P, K]`. -/
abbrev rowsDims (N K P : Nat) (wf : GatherDims.WF ⟨2, ![N, K]⟩ ⟨2, ![P, 1]⟩ ⟨2, ![P, K]⟩ [1] [0] [] [0] [] 1 ![1, K]) :
    GatherDims ⟨2, ![N, K]⟩ ⟨2, ![P, 1]⟩ ⟨2, ![P, K]⟩ where
  offsetDims := [1]
  collapsedSliceDims := [0]
  operandBatchingDims := []
  startIndicesBatchingDims := []
  startIndexMap := [0]
  indexVectorDim := 1
  sliceSizes := ![1, K]
  wf := wf

/-- THE SCALAR PICK at `e`: the operand at the row `idx[e, 0]` selects. -/
theorem pick_apply {N P w : Nat} (hN : 0 < N)
    (wf : GatherDims.WF ⟨1, ![N]⟩ ⟨2, ![P, 1]⟩ ⟨1, ![P]⟩ [] [0] [] [0] [] 1 ![1])
    (x : (⟨1, ![N]⟩ : Shape).Idx → α) (idx : IVec ⟨2, ![P, 1]⟩ w) (y : (⟨1, ![P]⟩ : Shape).Idx) :
    Host.gather (pickDims N P wf) x idx y = x (ix1 (rowOf N hN (idx (at0 (y 0))))) := by
  unfold Host.gather
  congr 1
  funext a
  obtain rfl : a = 0 := Subsingleton.elim _ _
  refine Fin.ext ?_
  show (pickDims N P wf).start y idx 0 + (pickDims N P wf).batchCoord y 0 + (pickDims N P wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N P wf).startIndexMap from List.mem_singleton.mpr rfl)]
  have hsi : (pickDims N P wf).siIdx y ⟨List.idxOf (0 : Fin 1) (pickDims N P wf).startIndexMap,
      List.idxOf_lt_length_iff.2 (List.mem_singleton.mpr rfl)⟩ = at0 (y 0) := by
    funext b; refine Fin.ext ?_
    match b with
    | ⟨0, _⟩ => rfl
    | ⟨1, _⟩ => rfl
  rw [hsi]
  rfl

/-- THE ROW PICK at `(e, c)`: the operand at the row `idx[e, 0]` selects — the scalar pick's row — and column `c`. -/
theorem rows_apply {N K P w : Nat} (hN : 0 < N)
    (wf : GatherDims.WF ⟨2, ![N, K]⟩ ⟨2, ![P, 1]⟩ ⟨2, ![P, K]⟩ [1] [0] [] [0] [] 1 ![1, K])
    (x : (⟨2, ![N, K]⟩ : Shape).Idx → α) (idx : IVec ⟨2, ![P, 1]⟩ w) (y : (⟨2, ![P, K]⟩ : Shape).Idx) :
    Host.gather (rowsDims N K P wf) x idx y = x (ix2 (rowOf N hN (idx (at0 (y 0)))) (y 1)) := by
  unfold Host.gather
  congr 1
  funext a
  refine Fin.ext ?_
  show (rowsDims N K P wf).start y idx a + (rowsDims N K P wf).batchCoord y a + (rowsDims N K P wf).offCoord y a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (rowsDims N K P wf).startIndexMap from List.mem_singleton.mpr rfl)]
    have hsi : (rowsDims N K P wf).siIdx y ⟨List.idxOf (⟨0, h0⟩ : Fin 2) (rowsDims N K P wf).startIndexMap,
        List.idxOf_lt_length_iff.2 (List.mem_singleton.mpr rfl)⟩ = at0 (y 0) := by
      funext b; refine Fin.ext ?_
      match b with
      | ⟨0, _⟩ => rfl
      | ⟨1, _⟩ => rfl
    rw [hsi]
    rfl
  | ⟨1, h1⟩ =>
    have hs : (rowsDims N K P wf).start y idx ⟨1, h1⟩ = 0 := by
      unfold GatherDims.start
      rw [dif_neg (show (⟨1, h1⟩ : Fin 2) ∉ (rowsDims N K P wf).startIndexMap from
        fun h => Nat.one_ne_zero (congrArg Fin.val (List.mem_singleton.mp h)))]
    have hk : (⟨1, h1⟩ : Fin 2) ∈ (rowsDims N K P wf).sKept :=
      (GatherDims.mem_sKept _ _).mpr
        ⟨fun h => Nat.one_ne_zero (congrArg Fin.val (List.mem_singleton.mp h)), List.not_mem_nil⟩
    rw [hs, Nat.zero_add]
    unfold GatherDims.offCoord
    rw [dif_pos hk]
    rfl

end Cert.LibGatherRows

end
-- ==== Proof.NormLaw.lean ====
/-
  The one law that joins the two programs' message norms, over the extended reals.

  For a real weight `a` and a real feature row `h`, the norm of the scaled row is the scaled norm of the row:
  `√(∑ (a·h_c)²) = |a| · √(max (∑ h_c²) 0)`. The sum of squares is a nonnegative real, so the `max` with `0` is
  the identity, the square roots are real square roots, and `∑ (a·h_c)² = a² · ∑ h_c²` by distributivity, which is
  where finiteness of `a` and of every `h_c` is used (it fails at the infinities). `|a|` appears as `max a (-a)`,
  which is how the absolute value reads on the extended reals.
-/
import Idealize.ShloMosaic.PureOps.Ideal

noncomputable section

namespace Cert.NormLaw

open Idealize.ShloMosaic

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The absolute value of a real, read on the extended reals as `max a (-a)`. -/
theorem max_neg_coe (a : ℝ) : max (a : EReal) (-(a : EReal)) = ((|a| : ℝ) : EReal) := by
  rw [← EReal.coe_neg, abs_eq_max_neg, EReal.coe_strictMono.monotone.map_max]

/-- The norm of a real row scaled by a real weight is the weight's absolute value times the row's norm. -/
theorem sqrt_scaled {n : Nat} (a : ℝ) (h : Fin n → ℝ) :
    Ideal.sqrt (∑ c, ((a : EReal) * (h c : EReal)) * ((a : EReal) * (h c : EReal)))
      = max (a : EReal) (-(a : EReal)) * Ideal.sqrt (max (∑ c, (h c : EReal) * (h c : EReal)) 0) := by
  have e1 : (∑ c, ((a : EReal) * (h c : EReal)) * ((a : EReal) * (h c : EReal)))
      = ((∑ c, (a * h c) * (a * h c) : ℝ) : EReal) := by
    rw [coe_sum]; exact Finset.sum_congr rfl fun c _ => by simp only [EReal.coe_mul]
  have e2 : (∑ c, (h c : EReal) * (h c : EReal)) = ((∑ c, h c * h c : ℝ) : EReal) := by
    rw [coe_sum]; exact Finset.sum_congr rfl fun c _ => by simp only [EReal.coe_mul]
  have hS : 0 ≤ ∑ c, h c * h c := Finset.sum_nonneg fun c _ => mul_self_nonneg _
  have hS' : 0 ≤ ∑ c, (a * h c) * (a * h c) := Finset.sum_nonneg fun c _ => mul_self_nonneg _
  have hmax : max ((∑ c, h c * h c : ℝ) : EReal) 0 = ((∑ c, h c * h c : ℝ) : EReal) :=
    max_eq_left (by exact_mod_cast hS)
  have hsq : ∑ c, (a * h c) * (a * h c) = a ^ 2 * ∑ c, h c * h c := by
    rw [Finset.mul_sum]; exact Finset.sum_congr rfl fun c _ => by ring
  rw [e1, e2, hmax, Ideal.sqrt_coe, Ideal.sqrt_coe, if_neg (not_lt.mpr hS'), if_neg (not_lt.mpr hS), max_neg_coe,
    ← EReal.coe_mul, hsq, Real.sqrt_mul (sq_nonneg a), Real.sqrt_sq_eq_abs]

end Cert.NormLaw

end
-- ==== Proof.Edges.lean ====
/-
  The edges: the two programs' per-edge rows are the same array.

  Fix the feature table `h` (real entries), its rows' sums of squares `hn2`, the edge list and the real edge weights.
  Both programs read, for edge `e`, ONE row of `h`: the row the source word selects (negative counted from the end,
  clamped into range). The kernel program's message norm is `|w_e| · √(max hn2[row] 0)`, the reference's is
  `√(∑_c (w_e · h[row, c])²)`; with `hn2[row] = ∑_c h[row, c]²` these are one extended real (the scaled-norm law,
  which is where finiteness enters). Equal norms give equal masks, and on a masked edge the kernel program multiplies the
  row by a zeroed weight where the reference zeroes the scaled row: `0 · h = 0`.
-/
import proofs.«126413_j33191507263709_2_alg».proof.Proof.HostChain
import proofs.«126413_j33191507263709_2_alg».proof.Proof.RefChain
import proofs.«126413_j33191507263709_2_alg».proof.Proof.LibGatherRows
import proofs.«126413_j33191507263709_2_alg».proof.Proof.NormLaw
import Idealize.ShloMosaic.Lib.Pipeline.Value
import Idealize.ShloMosaic.Lib.ValueIdx
import Idealize.ShloMosaic.PureOps.Ideal.Laws

set_option maxRecDepth 16384

noncomputable section

namespace Cert.KernelIdeal.Edges

open Cert.KernelIdeal Cert.KernelIdeal.Gen Cert.KernelIdeal.Chain
open Idealize.ShloMosaic Idealize.ShloMosaic.ValueIdx Cert.LibGatherRows
open Cert.ReferenceIdeal.RefChain (scaledRows nfmR updR)

/-- The one coordinate of a unit axis. -/
abbrev u0 : Fin 1 := ⟨0, Nat.one_pos⟩

/-! ## Reads at an index -/

/-- A vector over the edges, made a column and spread along the features, reads at `(e, c)` its entry `e`. -/
theorem bc_col {α : Type} (v : S400000.Idx → α) (e : Fin 400000) (c : Fin 256) :
    broadcastInDim S400000x256 ![0, 1] bcast_S400000x1_S400000x256_0_1 (broadcastInDim S400000x1 ![0] bcast_S400000_S400000x1_0 v)
        (ix2 e c)
      = v (ix1 e) :=
  (broadcastInDim_apply (s := S400000x1) (t := S400000x256) ![0, 1] bcast_S400000x1_S400000x256_0_1
      (broadcastInDim S400000x1 ![0] bcast_S400000_S400000x1_0 v) (ix2 e c) (ix2 e u0) (fun a => by
        match a with
        | ⟨0, _⟩ => show e.val = if (400000 : Nat) = 1 then 0 else e.val; rw [if_neg (by decide)]
        | ⟨1, _⟩ => show (0 : Nat) = if (1 : Nat) = 1 then 0 else c.val; rw [if_pos rfl])).trans
    (broadcastInDim_apply (s := S400000) (t := S400000x1) ![0] bcast_S400000_S400000x1_0 v (ix2 e u0) (ix1 e) (fun a => by
        match a with
        | ⟨0, _⟩ => show e.val = if (400000 : Nat) = 1 then 0 else e.val; rw [if_neg (by decide)]))

/-- A node's feature norm: the square root of its row's sum of squares, floored at zero. -/
theorem hnorm_apply (hn2 : FVec Ideal S50000x1 .f32) (r : Fin 50000) :
    hnormOf (F := Ideal) hn2 (ix1 r) = Ideal.sqrt (max (hn2 (ix2 r u0)) 0) := by
  unfold hnormOf
  show Ideal.sqrt (max (shapeCast _ hn2 shapeCasts_S50000x1_S50000 (ix1 r)) _) = _
  rw [shapeCast_apply hn2 _ (ix1 r) (ix2 r u0) (by
    rw [Shape.rowMajor_val_two, Shape.rowMajor_val_one]; show r.val * 1 + 0 = r.val; omega)]
  congr 2
  exact Ideal.ofBits_zero_f32

/-- The row of the table edge `e` reads: its source word, a negative one counted from the end, clamped into range. -/
def srcRow (ei : IVec S2x400000 32) (e : Fin 400000) : Fin 50000 :=
  rowOf 50000 (by decide) (wrapIx (F := Ideal) (srcV (F := Ideal) ei) (at0 e))

/-- A per-node vector gathered at the edges' sources reads, at edge `e`, the node `srcRow e`. -/
theorem pick_src {α : Type} (X : S50000.Idx → α) (ei : IVec S2x400000 32) (e : Fin 400000) :
    Host.gather gather_S50000_S400000x1_S400000_n_0_n_n_0_1_1 X (wrapIx (F := Ideal) (srcV (F := Ideal) ei)) (ix1 e)
      = X (ix1 (srcRow ei e)) :=
  pick_apply (N := 50000) (P := 400000) (by decide) gather_S50000_S400000x1_S400000_n_0_n_n_0_1_1.wf X _ (ix1 e)

/-- The table's rows gathered at the edges' sources read, at `(e, c)`, row `srcRow e`, column `c`: the same row. -/
theorem rows_at (h : FVec Ideal S50000x256 .f32) (ei : IVec S2x400000 32) (e : Fin 400000) (c : Fin 256) :
    rows (F := Ideal) h ei (ix2 e c) = h (ix2 (srcRow ei e) c) :=
  rows_apply (N := 50000) (K := 256) (P := 400000) (by decide) gather_S50000x256_S400000x1_S400000x256_1_0_n_n_0_1_1256.wf h _ (ix2 e c)

/-- The host's sum along the features of a per-edge table, from the zero word: the plain sum of the edge's row. -/
theorem rowsum_apply (y : FVec Ideal Cert.ReferenceIdeal.S400000x256 .f32) (e : Fin 400000) :
    Host.reduceAdd y (constant Cert.ReferenceIdeal.S_ .f32 0x00000000#32) Cert.ReferenceIdeal.Gen.reducesTo_S400000x256_S400000_d1
        Cert.ReferenceIdeal.Gen.h_S_ (ix1 e)
      = ∑ k : Fin 256, y (ix2 e k) := by
  simp only [Host.reduceAdd, Ideal.hostReduceAdd_def]
  rw [Ideal.hostReduceAdd_single Cert.ReferenceIdeal.Gen.reducesTo_S400000x256_S400000_d1 (by decide)]
  show Ideal.ofBits .f32 0x00000000#32 + _ = _
  rw [Ideal.ofBits_zero_f32, zero_add]
  exact Finset.sum_congr rfl fun k _ => congrArg y (funext fun a => Fin.ext (by
    match a with
    | ⟨0, _⟩ => rfl
    | ⟨1, _⟩ => rfl))

/-- The host's square root of a vector, at an entry: the square root of the entry. -/
theorem sqrt_at {s : Shape} (v : FVec Ideal s .f32) (i : s.Idx) : Host.sqrt (F := Ideal) v i = Ideal.sqrt (v i) := rfl

/-- A product of two vectors, at an entry: the product of the entries. -/
theorem mul_at {s : Shape} (u v : FVec Ideal s .f32) (i : s.Idx) : mulf (F := Ideal) u v i = u i * v i := rfl

/-- The reference's message norms as ONE function of the per-edge scaled rows: the square root of each row's sum of squares. -/
theorem nfmR_of_rows (h : FVec Ideal S50000x256 .f32) (ei : IVec S2x400000 32) (ew : FVec Ideal S400000 .f32) :
    nfmR (F := Ideal) h ei ew
      = Host.sqrt (F := Ideal) (Host.reduceAdd (F := Ideal)
          (mulf (F := Ideal) (scaledRows (F := Ideal) h ei ew) (scaledRows (F := Ideal) h ei ew))
          (constant (F := Ideal) Cert.ReferenceIdeal.S_ .f32 0x00000000#32)
          Cert.ReferenceIdeal.Gen.reducesTo_S400000x256_S400000_d1 Cert.ReferenceIdeal.Gen.h_S_) := by
  unfold nfmR
  rfl

/-- For ANY per-edge table `SR`: the square root of the host's row sum of `SR · SR`, at edge `e`. -/
theorem rownorm_at (SR : FVec Ideal Cert.ReferenceIdeal.S400000x256 .f32) (e : Fin 400000) :
    Host.sqrt (F := Ideal) (Host.reduceAdd (F := Ideal) (mulf (F := Ideal) SR SR)
        (constant (F := Ideal) Cert.ReferenceIdeal.S_ .f32 0x00000000#32)
        Cert.ReferenceIdeal.Gen.reducesTo_S400000x256_S400000_d1 Cert.ReferenceIdeal.Gen.h_S_) (ix1 e)
      = Ideal.sqrt (∑ k : Fin 256, SR (ix2 e k) * SR (ix2 e k)) := by
  rw [sqrt_at, rowsum_apply]
  exact congrArg Ideal.sqrt (Finset.sum_congr rfl fun k _ => mul_at SR SR (ix2 e k))

/-! ## The message norms agree -/

/-- With real weights, a real table, and `hn2` the table's row sums of squares, the two message norms are one vector. -/
theorem nfm_eq (h : FVec Ideal S50000x256 .f32) (hn2 : FVec Ideal S50000x1 .f32) (ei : IVec S2x400000 32)
    (ew : FVec Ideal S400000 .f32)
    (Hh : ∀ i, ∃ r : ℝ, h i = (r : EReal)) (Hw : ∀ i, ∃ r : ℝ, ew i = (r : EReal))
    (Hn : ∀ r : Fin 50000, hn2 (ix2 r u0) = ∑ c : Fin 256, h (ix2 r c) * h (ix2 r c)) :
    nfmK (F := Ideal) hn2 ei ew = nfmR (F := Ideal) h ei ew := by
  funext y
  obtain ⟨e, rfl⟩ : ∃ e : Fin 400000, y = ix1 e := ⟨y 0, eq_ix1 y⟩
  choose hr hhr using Hh
  obtain ⟨a, ha⟩ := Hw (ix1 e)
  -- the kernel program's side
  have eK : nfmK (F := Ideal) hn2 ei ew (ix1 e)
      = max (ew (ix1 e)) (-(ew (ix1 e))) * Ideal.sqrt (max (hn2 (ix2 (srcRow ei e) u0)) 0) := by
    unfold nfmK
    show (max (ew (ix1 e)) (-(ew (ix1 e)))) * (Host.gather _ (hnormOf (F := Ideal) hn2) _ (ix1 e)) = _
    rw [pick_src, hnorm_apply]
  -- the reference's side
  have e1 : ∀ k : Fin 256, scaledRows (F := Ideal) h ei ew (ix2 e k) = ew (ix1 e) * h (ix2 (srcRow ei e) k) := fun k => by
    unfold scaledRows
    show (broadcastInDim _ _ _ (broadcastInDim _ _ _ ew) (ix2 e k)) * (rows (F := Ideal) h ei (ix2 e k)) = _
    rw [bc_col, rows_at]
  have eR : nfmR (F := Ideal) h ei ew (ix1 e)
      = Ideal.sqrt (∑ k : Fin 256, (ew (ix1 e) * h (ix2 (srcRow ei e) k)) * (ew (ix1 e) * h (ix2 (srcRow ei e) k))) := by
    refine (congrFun (nfmR_of_rows h ei ew) (ix1 e)).trans ?_
    -- the scaled rows enter only through their entries on edge `e`
    generalize scaledRows (F := Ideal) h ei ew = SR at e1 ⊢
    rw [rownorm_at]
    exact congrArg Ideal.sqrt (Finset.sum_congr rfl fun k _ => by rw [e1])
  rw [eK, eR, Hn, ha]
  simp only [hhr]
  exact (Cert.NormLaw.sqrt_scaled a fun k => hr (ix2 (srcRow ei e) k)).symm

/-! ## The per-edge rows agree -/

/-- A selected value is one of the two it selects between. -/
theorem select_bit {α : Type} (b : BitVec 1) (x y : α) : Scalar.select b x y = if b = 1#1 then x else y := rfl

/-- With equal message norms the two programs' per-edge rows are one array: on a masked edge `0 · h = 0`. -/
theorem upd_eq (h : FVec Ideal S50000x256 .f32) (hn2 : FVec Ideal S50000x1 .f32) (ei : IVec S2x400000 32)
    (ew : FVec Ideal S400000 .f32) (nl : IVec S1000 32)
    (Hnfm : nfmK (F := Ideal) hn2 ei ew = nfmR (F := Ideal) h ei ew) :
    updK (F := Ideal) h hn2 ei ew nl = updR (F := Ideal) h ei ew nl := by
  funext j
  obtain ⟨e, c, rfl⟩ : ∃ (e : Fin 400000) (c : Fin 256), j = ix2 e c := ⟨j 0, j 1, eq_ix2 j⟩
  unfold updK updR scaledRows
  rw [Hnfm]
  show (broadcastInDim _ _ _ (broadcastInDim _ _ _ (select _ _ ew)) (ix2 e c)) * (rows (F := Ideal) h ei (ix2 e c))
    = Scalar.select (broadcastInDim _ _ _ (broadcastInDim _ _ _ (maskOf (F := Ideal) (nfmR (F := Ideal) h ei ew) (lockNot (F := Ideal) ei nl))) (ix2 e c))
        (broadcastInDim _ _ _ _ (ix2 e c))
        ((broadcastInDim _ _ _ (broadcastInDim _ _ _ ew) (ix2 e c)) * (rows (F := Ideal) h ei (ix2 e c)))
  rw [bc_col, bc_col, bc_col]
  show Scalar.select _ (Ideal.ofBits .f32 0x00000000#32) _ * _ = Scalar.select _ (Ideal.ofBits .f32 0x00000000#32) _
  rw [select_bit, select_bit, Ideal.ofBits_zero_f32]
  split
  · exact zero_mul _
  · rfl

/-- So, from one feature table and its rows' sums of squares, the kernel program's closing computation is the reference's. -/
theorem result_eq (h : FVec Ideal S50000x256 .f32) (hn2 : FVec Ideal S50000x1 .f32) (ei : IVec S2x400000 32)
    (ew : FVec Ideal S400000 .f32) (nl : IVec S1000 32) (b : FVec Ideal S256 .f32)
    (Hh : ∀ i, ∃ r : ℝ, h i = (r : EReal)) (Hw : ∀ i, ∃ r : ℝ, ew i = (r : EReal))
    (Hn : ∀ r : Fin 50000, hn2 (ix2 r u0) = ∑ c : Fin 256, h (ix2 r c) * h (ix2 r c)) :
    resultK (F := Ideal) h hn2 ei ew nl b = finish (F := Ideal) (updR (F := Ideal) h ei ew nl) ei b := by
  unfold resultK
  rw [upd_eq h hn2 ei ew nl (nfm_eq h hn2 ei ew Hh Hw Hn)]

end Cert.KernelIdeal.Edges

end
-- ==== Proof.ColSumSq.lean ====
/-
  The column sums of squares, read off the first region of the idealized kernel program.

  The region walks the [50000, 256] array in ten row blocks of 5000 rows. Its one output block [1, 256] never moves:
  the first point stores zero into it, and every point then adds, lane by lane, the sum over the block's 5000 rows of
  the squared entries. The block is written back once, after the last point. So the output array ends holding, at
  lane `q`, the sum over all 50000 rows `r` of `X r q * X r q`, where `X` is the array the region found on entry.

  The steps: what one point leaves in the output block, as a function of the input block and of what the block held
  (the two control cases); that function at a lane (a sum over the block's rows); the running sum after `n + 1` points
  by induction on the point; the input block's row `r` at point `t` is row `5000 t + r` of the array; ten blocks of
  5000 rows are the 50000 rows; the one write-back covers the output array.
-/
import proofs.«126413_j33191507263709_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ColSumSq

open Cert.KernelIdeal Cert.KernelIdeal.Gen

/-! ## What one point leaves in the output block -/

section AnyValues

variable {F : FTy → Type} [FloatOps F]

theorem hz : (![0, 0] : Fin 2 → Nat) = fun _ => 0 := funext fun a => by fin_cases a <;> rfl

/-- A later point: the block held `xo`; the body loads the input block `x` and `xo`, and stores the sum of `xo` and
    the column sums of squares of `x`. -/
theorem out_B (c : Dev nD) (i : grid0.Coords) (a1 : Memref sig .tc .vmem S5000x256 .f32) (h1 : a1.IsWhole)
    (a2 : Memref sig .tc .vmem S1x256 .f32) (h2 : a2.IsWhole) (hc : ¬cond0_0 i)
    (x : Vec F S5000x256 .f32) (xo : Vec F S1x256 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  try sl_unfold_words
  rw [View.canon_unit_zero hz]
  simp only [View.readAt_eq_ld, h1.read_unread, h2.read_unread, View.ld_unit_zero (S := S5000x256) hz,
    View.ld_unit_zero (S := S1x256) hz]

/-- The first point: the body stores the zero block, reads it back, and stores the sum of it and the column sums of
    squares of the input block. -/
theorem out_A (c : Dev nD) (i : grid0.Coords) (a1 : Memref sig .tc .vmem S5000x256 .f32) (h1 : a1.IsWhole)
    (a2 : Memref sig .tc .vmem S1x256 .f32) (h2 : a2.IsWhole) (hc : cond0_0 i)
    (x : Vec F S5000x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  try sl_unfold_words
  rw [View.canon_cons_unit_zero (S := S1x256) hz, View.readCov_unit_zero (S := S1x256) _ hz]
  simp only [View.readAt_eq_ld, h1.read_unread, View.ld_unit_zero (S := S5000x256) hz]

end AnyValues

/-! ## The stored block at a lane, over the extended reals -/

/-- The sum, over the 5000 rows of a block, of the squared entries of column `q`. -/
def colSq (x : FVec Ideal S5000x256 .f32) (q : Fin 256) : EReal := ∑ r : Fin 5000, x (ix2 r q) * x (ix2 r q)

/-- The index the reduction over the rows reads at lane `q`, for row coordinate `r`: row `r`, column `q`. -/
theorem lift_eq (q : Fin 256) (r : Fin 5000) :
    reduces_S5000x256_S256.lift (ix1 q) r = ix2 r q := by
  funext a
  apply Fin.ext
  match a with
  | ⟨0, _⟩ => rfl
  | ⟨1, _⟩ => rfl

/-- The reduction of the squared block over its rows, at lane `q`, is that sum. -/
theorem colsq_apply (x : FVec Ideal S5000x256 .f32) (q : Fin 256) :
    multiReduction (F := Ideal) .add [0] S256 (mulf x x) 0x00000000#32 reduces_S5000x256_S256 (.inl rfl) rfl (ix1 q)
      = colSq x q := by
  refine (Ideal.multiReduction_add_single (mulf x x) 0x00000000#32 reduces_S5000x256_S256 (.inl rfl) rfl (ix1 q)).trans ?_
  show (∑ r : Fin 5000, mulf x x (reduces_S5000x256_S256.lift (ix1 q) r)) = _
  refine Finset.sum_congr rfl fun r _ => ?_
  rw [lift_eq]
  rfl

/-- The stored block at lane `q`: what the block held there plus the sum, over the input block's rows, of the squared
    entries of column `q`. -/
theorem pay2_apply (x : Vec Ideal S5000x256 .f32) (xo : Vec Ideal S1x256 .f32) (u : Fin 1) (q : Fin 256) :
    k0_pay2 (F := Ideal) x xo (ix2 u q) = xo (ix2 u q) + colSq x q := by
  unfold k0_pay2
  dsimp only
  refine (addf_apply _ _ _).trans ?_
  refine congrArg₂ (· + ·) ?_ ?_
  · exact congrFun (shapeCast_self xo shapeCasts_S1x256_S1x256) (ix2 u q)
  · refine (shapeCast_a_1a_apply _ shapeCasts_S256_S1x256 u q).trans ?_
    exact colsq_apply x q

/-- The block the first point stores first is zero at every lane. -/
theorem pay1_apply (j : S1x256.Idx) : k0_pay1 (F := Ideal) j = 0 := by
  unfold k0_pay1
  show Ideal.ofBits .f32 0x00000000#32 = 0
  exact Ideal.ofBits_zero_f32

/-- A later point at a lane: what the block held plus the input block's sum. -/
theorem out_B_apply (c : Dev nD) (i : grid0.Coords) (a1 : Memref sig .tc .vmem S5000x256 .f32) (h1 : a1.IsWhole)
    (a2 : Memref sig .tc .vmem S1x256 .f32) (h2 : a2.IsWhole) (hc : ¬cond0_0 i)
    (x : Vec Ideal S5000x256 .f32) (xo : Vec Ideal S1x256 .f32) (u : Fin 1) (q : Fin 256) :
    out0_B_1 c i a1 h1 a2 h2 hc x xo (ix2 u q) = xo (ix2 u q) + colSq x q :=
  (congrFun (out_B c i a1 h1 a2 h2 hc x xo) (ix2 u q)).trans (pay2_apply x xo u q)

/-- The first point at a lane: zero plus the input block's sum. -/
theorem out_A_apply (c : Dev nD) (i : grid0.Coords) (a1 : Memref sig .tc .vmem S5000x256 .f32) (h1 : a1.IsWhole)
    (a2 : Memref sig .tc .vmem S1x256 .f32) (h2 : a2.IsWhole) (hc : cond0_0 i)
    (x : Vec Ideal S5000x256 .f32) (u : Fin 1) (q : Fin 256) :
    out0_A_1 c i a1 h1 a2 h2 hc x (ix2 u q) = colSq x q := by
  refine (congrFun (out_A c i a1 h1 a2 h2 hc x) (ix2 u q)).trans ?_
  rw [pay2_apply, pay1_apply, zero_add]

/-! ## The running sum after each point -/

section Run

variable (V : (c : Dev nD) → (b : Ref sig .tc) → Buf (Elt Ideal) ((c : Thread nD τ).loc b))

/-- The sum, over the rows of the input block at point `n`, of the squared entries of column `q` (zero past the grid). -/
def blockSum (c : Dev nD) (q : Fin 256) (n : ℕ) : EReal :=
  if h : n < cfg0.N then colSq (iblk0 V c 0 ⟨n, h⟩) q else 0

theorem blockSum_of_lt (c : Dev nD) (q : Fin 256) (n : ℕ) (h : n < cfg0.N) :
    blockSum V c q n = colSq (iblk0 V c 0 ⟨n, h⟩) q := dif_pos h

/-- After point `n` the output block holds, at lane `q`, the sum of the first `n + 1` blocks' sums: by induction on the
    point, the first point starting from zero and every later one adding its block's sum to what the point before left. -/
theorem outsAt_apply (c : Dev nD) (u : Fin 1) (q : Fin 256) : ∀ (n : ℕ) (h : n < cfg0.N),
    (outsAt0 V c n h : Vec Ideal S1x256 .f32) (ix2 u q) = ∑ t ∈ Finset.range (n + 1), blockSum V c q t
  | 0, h => by
    rw [Finset.sum_range_one, blockSum_of_lt V c q 0 h]
    exact (congrFun (outsAt0_A V c ⟨0, h⟩ rfl) (ix2 u q)).trans
      (out_A_apply c (grid0.coords ⟨0, h⟩) (ms0_0 ⟨0, h⟩) (hs0_0 ⟨0, h⟩) (ms0_1 ⟨0, h⟩) (hs0_1 ⟨0, h⟩)
        ((hcond0_0 ⟨0, h⟩).mpr rfl) (iblk0 V c 0 ⟨0, h⟩) u q)
  | n + 1, h => by
    have hN : cfg0.N = 10 := N_0
    have hB : ¬(⟨n + 1, h⟩ : Fin cfg0.N).val % 10 = 0 := by dsimp only; omega
    rw [Finset.sum_range_succ _ (n + 1), blockSum_of_lt V c q (n + 1) h, ← outsAt_apply c u q n (Nat.lt_of_succ_lt h)]
    exact (congrFun (outsAt0_B V c ⟨n + 1, h⟩ hB) (ix2 u q)).trans
      (out_B_apply c (grid0.coords ⟨n + 1, h⟩) (ms0_0 ⟨n + 1, h⟩) (hs0_0 ⟨n + 1, h⟩) (ms0_1 ⟨n + 1, h⟩) (hs0_1 ⟨n + 1, h⟩)
        (fun hh => hB ((hcond0_0 ⟨n + 1, h⟩).mp hh)) (iblk0 V c 0 ⟨n + 1, h⟩) (outsAt0 V c n (Nat.lt_of_succ_lt h)) u q)

/-! ## The input block's rows are the array's rows -/

/-- The array the region reads, as a function on the [50000, 256] index type. -/
abbrev X (c : Dev nD) : S50000x256.Idx → EReal := V c (Pipeline.arrRef spec0 0)

/-- The input window's block index at point `t` is `(t, 0)`: decided over the grid's ten points. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of the input block at point `t` is row `5000 t + r` of the array: a block's element sits at the block
    index times the block's size plus its coordinate inside the block. -/
theorem iblk_apply (c : Dev nD) (t : Fin cfg0.N) (r : Fin 5000) (q : Fin 256) (k : Fin 50000)
    (hk : k.val = 5000 * t.val + r.val) :
    (iblk0 V c 0 t : Vec Ideal S5000x256 .f32) (ix2 r q) = X V c (ix2 k q) := by
  unfold iblk0
  rw [View.read_apply]
  show V c (Pipeline.arrRef spec0 0) _ = V c (Pipeline.arrRef spec0 0) _
  refine congrArg _ ?_
  funext a
  apply Fin.ext
  match a with
  | ⟨0, _⟩ => show win0_0.index t 0 * 5000 + 1 * r.val = k.val; rw [(idx_in t).1, hk]; omega
  | ⟨1, _⟩ => show win0_0.index t 1 * 256 + 1 * q.val = q.val; rw [(idx_in t).2]; omega

/-! ## Ten blocks of 5000 rows are the 50000 rows -/

/-- Row `r` of block `t`, as a row of the array. -/
def row (t : Fin 10) (r : Fin 5000) : Fin 50000 := finProdFinEquiv (t, r)

theorem row_val (t : Fin 10) (r : Fin 5000) : (row t r).val = r.val + 5000 * t.val := rfl

/-- A sum over the 50000 rows, taken block by block. -/
theorem sum_rows {M : Type} [AddCommMonoid M] (g : Fin 50000 → M) :
    ∑ t : Fin 10, ∑ r : Fin 5000, g (row t r) = ∑ k : Fin 50000, g k :=
  (Fintype.sum_prod_type' (fun (t : Fin 10) (r : Fin 5000) => g (row t r))).symm.trans
    (Equiv.sum_comp (finProdFinEquiv : Fin 10 × Fin 5000 ≃ Fin 50000) g)

/-- The ten blocks' sums at lane `q` add up to the sum over all rows of the array's squared entries in column `q`. -/
theorem total (c : Dev nD) (q : Fin 256) :
    ∑ t ∈ Finset.range 10, blockSum V c q t = ∑ k : Fin 50000, X V c (ix2 k q) * X V c (ix2 k q) := by
  have hN : cfg0.N = 10 := N_0
  rw [Finset.sum_range, ← sum_rows]
  refine Finset.sum_congr rfl fun t _ => ?_
  rw [blockSum_of_lt V c q t.val (lt_of_lt_of_eq t.isLt hN.symm)]
  unfold colSq
  refine Finset.sum_congr rfl fun r _ => ?_
  rw [iblk_apply V c ⟨t.val, lt_of_lt_of_eq t.isLt hN.symm⟩ r q (row t r)
    (by rw [row_val]; show r.val + 5000 * t.val = 5000 * t.val + r.val; omega)]

end Run

/-! ## The one write-back covers the output array -/

section Final

variable {F : FTy → Type} [FloatOps F]
variable (V : (c : Dev nD) → (b : Ref sig .tc) → Buf (Elt F) ((c : Thread nD τ).loc b))

theorem lt9 : 9 < cfg0.N := by rw [show cfg0.N = 10 from N_0]; decide

/-- The output block is written back once, after the last point, and what is written is what the block then holds:
    the window's one block, at index (0, 0), is the whole [1, 256] array. -/
theorem flushed_eq (c : Dev nD) (t : Fin cfg0.N) (hf : (cfg0.win 1).flush t = true) :
    (dat0 V c).flushed 1 t = ((cfg0.win 1).blk t).view.read (Elt F) (outsAt0 V c 9 lt9) := by
  have hN : cfg0.N = 10 := N_0
  have h9 : t.val = 9 := by have := (flush0_1 t).mp hf; have := t.isLt; omega
  obtain rfl : t = t0_9 := Fin.ext h9
  show (cfg0.win 1).cut (grid0.coords t0_9) ((dat0 V c).after 1 t0_9) = _
  rw [after0_1]
  have hz' : (fun a => win0_1.index t0_9 a * main_v0.ty.shape.size a) = fun _ => 0 :=
    funext fun a => by fin_cases a <;> decide
  exact (Memref.read_access_unit_zero (Elt F) main_v0 hz' (fun a => by rw [congrFun hz' a]; simp)
    (outsAt0 V c 9 lt9)).symm

/-- So the output array ends holding what the block holds after the last point. -/
theorem final (c : Dev nD) : (dat0 V c).arrAt 1 cfg0.N = outsAt0 V c 9 lt9 :=
  (dat0 V c).arrAt_eq_of_cover 1 (outsAt0 V c 9 lt9) (flushed_eq V c) fun i =>
    ⟨t0_9, (flush0_1 t0_9).mpr rfl, by
      show i ∈ ((View.whole main_v0).slice (win0_1.rect t0_9)).set
      rw [View.set_slice_whole, Rect.mem_set_unit]
      intro a
      have h0 : (i 0 : Nat) < 1 := (i 0).isLt
      have h1 : (i 1 : Nat) < 256 := (i 1).isLt
      match a with
      | ⟨0, _⟩ =>
        show win0_1.index t0_9 0 * win0_1.size 0 ≤ (i 0 : Nat)
          ∧ (i 0 : Nat) < win0_1.index t0_9 0 * win0_1.size 0 + win0_1.xsize (grid0.coords t0_9) 0
        rw [show win0_1.index t0_9 0 * win0_1.size 0 = 0 from by decide +kernel,
          show win0_1.xsize (grid0.coords t0_9) 0 = 1 from by decide +kernel]
        omega
      | ⟨1, _⟩ =>
        show win0_1.index t0_9 1 * win0_1.size 1 ≤ (i 1 : Nat)
          ∧ (i 1 : Nat) < win0_1.index t0_9 1 * win0_1.size 1 + win0_1.xsize (grid0.coords t0_9) 1
        rw [show win0_1.index t0_9 1 * win0_1.size 1 = 0 from by decide +kernel,
          show win0_1.xsize (grid0.coords t0_9) 1 = 256 from by decide +kernel]
        omega⟩

end Final

/-! ## The result -/

/-- After the region the [1, 256] output array holds, at lane `j 1`, the sum over all 50000 rows `r` of the squared
    entry `X r (j 1) * X r (j 1)` of the array `X` the region found in its input window. -/
theorem colsumsq (V : (c : Dev nD) → (b : Ref sig .tc) → Buf (Elt Ideal) ((c : Thread nD τ).loc b)) (c : Dev nD)
    (j : S1x256.Idx) :
    (dat0 (F := Ideal) V c).arrAt 1 cfg0.N j
      = ∑ r : Fin 50000, X V c (ix2 r (j 1)) * X V c (ix2 r (j 1)) := by
  rw [final V c]
  obtain ⟨u, q, rfl⟩ : ∃ (u : Fin 1) (q : Fin 256), j = ix2 u q := ⟨j 0, j 1, eq_ix2 j⟩
  rw [outsAt_apply V c u q 9 lt9]
  exact total V c q

/-- The same, as an equation between arrays. -/
theorem colsumsq_fun (V : (c : Dev nD) → (b : Ref sig .tc) → Buf (Elt Ideal) ((c : Thread nD τ).loc b)) (c : Dev nD) :
    ((dat0 (F := Ideal) V c).arrAt 1 cfg0.N : S1x256.Idx → EReal)
      = fun j => ∑ r : Fin 50000, X V c (ix2 r (j 1)) * X V c (ix2 r (j 1)) :=
  funext (colsumsq V c)

end Cert.KernelIdeal.ColSumSq

end
-- ==== Proof.MatmulValue.lean ====
/-
  Region 1 of the kernel program, read as values at the exact extended reals: a grid of 25 points, point `t` taking
  rows `2000 t … 2000 t + 1999` of a [50000,256] array `X` and the whole of a [256,256] array `Wt`, and storing
  the [2000,256] product of the two (accumulated into zero, so the plain sum over the 256 contracted positions) and, in a
  one-column block, each row's sum over the 256 columns of the squared product (summed from the zero word, the real 0).

  The file has three parts. First the two stored values at an index of the block: the product at `(p, q)` is
  `∑ k, x0 (p, k) * x1 (k, q)` (the contraction's index set is its one coordinate `k : Fin 256`), and the one-column value
  at row `p` is `∑ cc, (product at (p, cc))²` (the lane sum over one axis is the `Fin`-indexed sum; the recast of a
  2000-vector as a one-column block keeps the row). Second the blocks as parts of their arrays: the index maps, decided over
  the 25 points, put the row-block windows at block row `t` and leave the matrix's window at the origin, so an element of
  a block at `(p, q)` is the array's at `(2000 t + p, q)`, and the matrix's block is the matrix. Third the arrays after
  the region: every point writes back block `t` of ONE function of the two operand arrays (`prodArr`, `sqArr`), row `r`
  lies in the block of point `r / 2000`, so the blocks cover the arrays and each array ends holding that function
  (`final2`, `final3`; at an index `h_val`, `hn2_val`, and with the sums written out `h_val_sum`, `hn2_val_sum`).
  Everything is stated at any region-entry contents `V`.
-/
import proofs.«126413_j33191507263709_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.MatmulValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's two stored values at an index -/

/-- On the row axis the left operand's index of the product is the output's row. -/
theorem lhs_row (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- On the column axis the right operand's index of the product is the output's column. -/
theorem rhs_col (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The first stored value: the block times the matrix, accumulated into zero, at row `p` and column `q` is row `p` of
    the block against column `q` of the matrix. -/
theorem prod_at (x0 : FVec Ideal S2000x256 .f32) (x1 : FVec Ideal S256x256 .f32) (p : Fin 2000) (q : Fin 256) :
    k1_pay1 (F := Ideal) x0 x1 (ix2 p q) = ∑ k : Fin 256, x0 (ix2 p k) * x1 (ix2 k q) := by
  unfold k1_pay1
  rw [shapeCast_self]
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_row _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => exact rhs_col _ _)
  rw [el, er]

/-- A vector of 2000 entries recast as a one-column block reads, at row `p`, the vector's entry `p`. -/
theorem column_at {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    omega)

/-- The second stored value: at row `p` of the one-column block, the sum over the 256 columns of the squared product. -/
theorem sq_at (x0 : FVec Ideal S2000x256 .f32) (x1 : FVec Ideal S256x256 .f32) (p : Fin 2000) (u : Fin 1) :
    k1_pay2 (F := Ideal) x0 x1 (ix2 p u)
      = ∑ cc : Fin 256, k1_pay1 (F := Ideal) x0 x1 (ix2 p cc) * k1_pay1 (F := Ideal) x0 x1 (ix2 p cc) := by
  unfold k1_pay2
  refine (column_at _ p u).trans ?_
  refine (Ideal.multiReduction_add_single (mulf (k1_pay1 (F := Ideal) x0 x1) (k1_pay1 (F := Ideal) x0 x1)) 0x00000000#32
    reduces_S2000x256_S2000 (.inl rfl) rfl (ix1 p)).trans ?_
  refine Finset.sum_congr rfl fun cc _ => ?_
  have e : reduces_S2000x256_S2000.lift (ix1 p) cc = ix2 p cc :=
    funext fun a => Fin.ext (by
      match a with
      | ⟨0, _⟩ => rfl
      | ⟨1, _⟩ => rfl)
  rw [e]
  rfl

/-! ## From the blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the 25 grid points: the row-block windows sit at block row `t`, block column 0; the
    matrix's window never moves. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `2000 t … 2000 t + 1999` of its array. -/
theorem rows_at (c : Dev nD) (t : Fin cfg1.N) (y : S2000x256.Idx) (i : S50000x256.Idx)
    (h0 : (i 0).val = t.val * 2000 + (y 0).val) (h1 : (i 1).val = (y 1).val) :
    (iblk1 (F := Ideal) V c 0 t : Vec Ideal S2000x256 .f32) y
      = (V c (Pipeline.arrRef spec1 0) : S50000x256.Idx → Ideal .f32) i := by
  obtain ⟨e0, e1, -⟩ := idx_facts t
  unfold iblk1
  rw [View.read_apply]
  show (V c (Pipeline.arrRef spec1 0) : S50000x256.Idx → Ideal .f32) _ = _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The right operand's block at every point is its whole array. -/
theorem matrix_at (c : Dev nD) (t : Fin cfg1.N) (y : S256x256.Idx) :
    (iblk1 (F := Ideal) V c 1 t : Vec Ideal S256x256 .f32) y
      = (V c (Pipeline.arrRef spec1 1) : S256x256.Idx → Ideal .f32) y := by
  obtain ⟨-, -, e0, e1, -⟩ := idx_facts t
  unfold iblk1
  rw [View.read_apply]
  show (V c (Pipeline.arrRef spec1 1) : S256x256.Idx → Ideal .f32) _ = _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The product array: entry `(r, q)` is row `r` of `X` against column `q` of `Wt`. -/
def prodArr (X : S50000x256.Idx → Ideal .f32) (Wt : S256x256.Idx → Ideal .f32) : S50000x256.Idx → Ideal .f32 :=
  fun i => ∑ k : Fin 256, X (ix2 (i 0) k) * Wt (ix2 k (i 1))

theorem prodArr_apply (X : S50000x256.Idx → Ideal .f32) (Wt : S256x256.Idx → Ideal .f32) (i : S50000x256.Idx) :
    prodArr X Wt i = ∑ k : Fin 256, X (ix2 (i 0) k) * Wt (ix2 k (i 1)) := rfl

/-- The squared row norms of the product: entry `r` of the one-column array is the sum over the 256 columns of the
    squared entry `(r, cc)` of the product. -/
def sqArr (X : S50000x256.Idx → Ideal .f32) (Wt : S256x256.Idx → Ideal .f32) : S50000x1.Idx → Ideal .f32 :=
  fun i => ∑ cc : Fin 256, (∑ k : Fin 256, X (ix2 (i 0) k) * Wt (ix2 k cc)) * (∑ k : Fin 256, X (ix2 (i 0) k) * Wt (ix2 k cc))

theorem sqArr_apply (X : S50000x256.Idx → Ideal .f32) (Wt : S256x256.Idx → Ideal .f32) (i : S50000x1.Idx) :
    sqArr X Wt i = ∑ cc : Fin 256, (∑ k : Fin 256, X (ix2 (i 0) k) * Wt (ix2 k cc)) * (∑ k : Fin 256, X (ix2 (i 0) k) * Wt (ix2 k cc)) := rfl

/-- The product of the blocks at point `t`, at an index of the block, is the product array at the index `2000 t` rows
    further down. -/
theorem prod_blk_at (c : Dev nD) (t : Fin cfg1.N) (y : S2000x256.Idx) (i : S50000x256.Idx)
    (h0 : (i 0).val = t.val * 2000 + (y 0).val) (h1 : (i 1).val = (y 1).val) :
    k1_pay1 (F := Ideal) (iblk1 V c 0 t) (iblk1 V c 1 t) y
      = prodArr (V c (Pipeline.arrRef spec1 0)) (V c (Pipeline.arrRef spec1 1)) i := by
  obtain ⟨p, q, rfl⟩ : ∃ (p : Fin 2000) (q : Fin 256), y = ix2 p q := ⟨y 0, y 1, eq_ix2 y⟩
  obtain ⟨r, s, rfl⟩ : ∃ (r : Fin 50000) (s : Fin 256), i = ix2 r s := ⟨i 0, i 1, eq_ix2 i⟩
  obtain rfl : s = q := Fin.ext h1
  refine (prod_at _ _ p s).trans (Finset.sum_congr rfl fun k _ => ?_)
  rw [rows_at V c t (ix2 p k) (ix2 r k) h0 rfl, matrix_at V c t (ix2 k s)]

/-- The sum of squares of the blocks' product at point `t`, at a row of the block, is the row-norm array `2000 t` rows
    further down. -/
theorem sq_blk_at (c : Dev nD) (t : Fin cfg1.N) (y : S2000x1.Idx) (i : S50000x1.Idx)
    (h0 : (i 0).val = t.val * 2000 + (y 0).val) :
    k1_pay2 (F := Ideal) (iblk1 V c 0 t) (iblk1 V c 1 t) y
      = sqArr (V c (Pipeline.arrRef spec1 0)) (V c (Pipeline.arrRef spec1 1)) i := by
  obtain ⟨p, u, rfl⟩ : ∃ (p : Fin 2000) (u : Fin 1), y = ix2 p u := ⟨y 0, y 1, eq_ix2 y⟩
  obtain ⟨r, s, rfl⟩ : ∃ (r : Fin 50000) (s : Fin 1), i = ix2 r s := ⟨i 0, i 1, eq_ix2 i⟩
  refine (sq_at _ _ p u).trans (Finset.sum_congr rfl fun cc _ => ?_)
  rw [prod_blk_at V c t (ix2 p cc) (ix2 r cc) h0 rfl]
  rfl

/-! ## What each point writes back, the cover, and the arrays after the region -/

/-- What point `t` writes back to the product's window is block `t` of the product array. -/
theorem flushed2_eq (c : Dev nD) (t : Fin cfg1.N) :
    (dat1 (F := Ideal) V c).flushed 2 t
      = ((cfg1.win 2).blk t).view.read (Elt Ideal) (prodArr (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨-, -, -, -, e0, e1, -⟩ := idx_facts t
  funext j
  refine prod_blk_at V c t j _ ?_ ?_
  · show win1_2.index t (0 : Fin 2) * 2000 + 1 * (j 0).val = t.val * 2000 + (j 0).val
    rw [e0]; omega
  · show win1_2.index t (1 : Fin 2) * 256 + 1 * (j 1).val = (j 1).val
    rw [e1]; omega

/-- What point `t` writes back to the row norms' window is block `t` of the row-norm array. -/
theorem flushed3_eq (c : Dev nD) (t : Fin cfg1.N) :
    (dat1 (F := Ideal) V c).flushed 3 t
      = ((cfg1.win 3).blk t).view.read (Elt Ideal) (sqArr (V c (Pipeline.arrRef spec1 0)) (V c (Pipeline.arrRef spec1 1))) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz]
  obtain ⟨-, -, -, -, -, -, e0, e1⟩ := idx_facts t
  funext j
  refine sq_blk_at V c t j _ ?_
  show win1_3.index t (0 : Fin 2) * 2000 + 1 * (j 0).val = t.val * 2000 + (j 0).val
  rw [e0]; omega

/-- An index of the product's array is in point `t`'s block iff each coordinate is in the block's range. -/
theorem mem_blk2 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v16_0).slice (win1_2.rect t)).set ↔ _
  rw [View.set_slice_whole, Rect.mem_set_unit]
  exact Iff.rfl

/-- An index of the row norms' array is in point `t`'s block iff each coordinate is in the block's range. -/
theorem mem_blk3 (t : Fin cfg1.N) (i : S50000x1.Idx) :
    i ∈ ((cfg1.win 3).blk t).view.set ↔ ∀ a : Fin 2, win1_3.index t a * S2000x1.size a ≤ (i a).val
      ∧ (i a).val < win1_3.index t a * S2000x1.size a + S2000x1.size a := by
  show i ∈ ((View.whole main_v16_1).slice (win1_3.rect t)).set ↔ _
  rw [View.set_slice_whole, Rect.mem_set_unit]
  exact Iff.rfl

/-- Row `r` is in the block of point `r / 2000`: the 25 row blocks cover the product's array. -/
theorem cover2 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, e0, e1, -⟩ := idx_facts t
  refine ⟨t, flush1_2 t, ?_⟩
  rw [mem_blk2]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 256 ≤ (i 1).val ∧ (i 1).val < win1_2.index t (1 : Fin 2) * 256 + 256
    rw [e1]; omega

/-- Likewise the 25 row blocks cover the row norms' array. -/
theorem cover3 (i : S50000x1.Idx) :
    ∃ t : Fin cfg1.N, (cfg1.win 3).flush t = true ∧ i ∈ ((cfg1.win 3).blk t).view.set := by
  have hi0 : (i 0).val < 50000 := (i 0).isLt
  have hi1 : (i 1).val < 1 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e0, e1⟩ := idx_facts t
  refine ⟨t, flush1_3 t, ?_⟩
  rw [mem_blk3]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 1 ≤ (i 1).val ∧ (i 1).val < win1_3.index t (1 : Fin 2) * 1 + 1
    rw [e1]; omega

/-- After the region the product's array holds the product array of the two operand arrays as the region found them. -/
theorem final2 (c : Dev nD) :
    (dat1 (F := Ideal) V c).arrAt 2 cfg1.N = prodArr (V c (Pipeline.arrRef spec1 0)) (V c (Pipeline.arrRef spec1 1)) :=
  (dat1 (F := Ideal) V c).arrAt_eq_of_cover 2 _ (fun t _ => flushed2_eq V c t) cover2

/-- After the region the row norms' array holds the row-norm array of the two operand arrays as the region found them. -/
theorem final3 (c : Dev nD) :
    (dat1 (F := Ideal) V c).arrAt 3 cfg1.N = sqArr (V c (Pipeline.arrRef spec1 0)) (V c (Pipeline.arrRef spec1 1)) :=
  (dat1 (F := Ideal) V c).arrAt_eq_of_cover 3 _ (fun t _ => flushed3_eq V c t) cover3

/-- The product's array after the region, at an index. -/
theorem h_val (c : Dev nD) (i : S50000x256.Idx) :
    (dat1 (F := Ideal) V c).arrAt 2 cfg1.N i = prodArr (V c (Pipeline.arrRef spec1 0)) (V c (Pipeline.arrRef spec1 1)) i :=
  congrFun (final2 V c) i

/-- The row norms' array after the region, at an index. -/
theorem hn2_val (c : Dev nD) (i : S50000x1.Idx) :
    (dat1 (F := Ideal) V c).arrAt 3 cfg1.N i = sqArr (V c (Pipeline.arrRef spec1 0)) (V c (Pipeline.arrRef spec1 1)) i :=
  congrFun (final3 V c) i

/-- The product's array after the region at an index, the sum written out: for `X`, `Wt` the two operand arrays as the
    region found them, entry `(r, q)` is `∑ k, X (r, k) * Wt (k, q)`. -/
theorem h_val_sum (c : Dev nD) (X : S50000x256.Idx → Ideal .f32) (Wt : S256x256.Idx → Ideal .f32)
    (hX : X = V c (Pipeline.arrRef spec1 0)) (hW : Wt = V c (Pipeline.arrRef spec1 1)) (i : S50000x256.Idx) :
    (dat1 (F := Ideal) V c).arrAt 2 cfg1.N i = ∑ k : Fin 256, X (ix2 (i 0) k) * Wt (ix2 k (i 1)) := by
  subst hX hW
  exact h_val V c i

/-- The row norms' array after the region at an index, the sums written out: entry `r` is the sum over the 256 columns
    `cc` of `(∑ k, X (r, k) * Wt (k, cc))²`. -/
theorem hn2_val_sum (c : Dev nD) (X : S50000x256.Idx → Ideal .f32) (Wt : S256x256.Idx → Ideal .f32)
    (hX : X = V c (Pipeline.arrRef spec1 0)) (hW : Wt = V c (Pipeline.arrRef spec1 1)) (i : S50000x1.Idx) :
    (dat1 (F := Ideal) V c).arrAt 3 cfg1.N i
      = ∑ cc : Fin 256, (∑ k : Fin 256, X (ix2 (i 0) k) * Wt (ix2 k cc)) * (∑ k : Fin 256, X (ix2 (i 0) k) * Wt (ix2 k cc)) := by
  subst hX hW
  exact hn2_val V c i

end Cert.KernelIdeal.MatmulValue

end
-- ==== Proof.Bridge.lean ====
/-
  From the kernel program's buffers to the reference's function of the arguments.

  The first region leaves the column sums of squares `∑_r x[r, c]²`, so the norms the host takes of them are the
  reference's column norms, and the weight the second region is handed is the reference's pruned, transposed weight
  `w`. The second region leaves `h = x · w` (a plain sum over the 256 contracted positions, which is what the host's
  matrix product is) and each row's sum of squares of `h`. Every entry of `w` is `0` or an entry of `W`, hence real,
  and then every entry of `h` is a finite sum of products of reals, hence real: the edges' law applies, and the
  result buffer after the run is the reference's result of the same arguments.
-/
import proofs.«126413_j33191507263709_2_alg».proof.Proof.Gen.KernelIdeal.Frame
import proofs.«126413_j33191507263709_2_alg».proof.Proof.Gen.ReferenceIdeal.Read
import proofs.«126413_j33191507263709_2_alg».proof.Proof.HostChain
import proofs.«126413_j33191507263709_2_alg».proof.Proof.RefChain
import proofs.«126413_j33191507263709_2_alg».proof.Proof.Args
import proofs.«126413_j33191507263709_2_alg».proof.Proof.Edges
import proofs.«126413_j33191507263709_2_alg».proof.Proof.ColSumSq
import proofs.«126413_j33191507263709_2_alg».proof.Proof.MatmulValue
import proofs.«126413_j33191507263709_2_alg».proof.Proof.NormLaw
import Idealize.ShloMosaic.Lib.ValueLayout

set_option maxRecDepth 16384

noncomputable section

namespace Cert.KernelIdeal.Bridge

open Cert.KernelIdeal Cert.KernelIdeal.Gen Cert.KernelIdeal.Chain
open Idealize.ShloMosaic Idealize.ShloMosaic.TcCoe Idealize.SL.Sem Idealize.ShloMosaic.ValueIdx
open Cert.ReferenceIdeal.RefChain (colNorm hR resultR)
open Cert.KernelIdeal.MatmulValue (prodArr sqArr prodArr_apply sqArr_apply)
open Cert.KernelIdeal.Edges (u0 select_bit)

/-! ## The column norms -/

/-- A [1,256] array holding the column sums of squares of `x`, flattened and square-rooted, is the reference's
    vector of column norms. -/
theorem colNorm_fun (x : FVec Ideal S50000x256 .f32) :
    colNorm (F := Ideal) x
      = Host.sqrt (F := Ideal) (s := Cert.ReferenceIdeal.S256) (φ := .f32) (Cert.ReferenceIdeal.Read.val_main_call0_v1 (F := Ideal) x) := by
  unfold colNorm Cert.ReferenceIdeal.Read.val_main_call0_v1 Cert.ReferenceIdeal.Read.val_main_call0_v0
    Cert.ReferenceIdeal.Read.val_main_call0_cst
  rfl

theorem colnorm_eq (A : FVec Ideal S1x256 .f32) (x : FVec Ideal S50000x256 .f32)
    (HA : ∀ c : Fin 256, A (ix2 (0 : Fin 1) c) = ∑ r : Fin 50000, x (ix2 r c) * x (ix2 r c)) :
    Host.sqrt (F := Ideal) (shapeCast S256 A shapeCasts_S1x256_S256) = colNorm (F := Ideal) x := by
  funext j
  obtain ⟨c, rfl⟩ : ∃ c : Fin 256, j = ix1 c := ⟨j 0, eq_ix1 j⟩
  rw [colNorm_fun, Cert.KernelIdeal.Edges.sqrt_at, Cert.KernelIdeal.Edges.sqrt_at,
    shapeCast_1a_a_apply A shapeCasts_S1x256_S256 c, HA, Cert.ReferenceIdeal.Read.val_main_call0_v1_apply]
  simp only [Cert.ReferenceIdeal.Read.val_main_call0_cst_apply, Cert.ReferenceIdeal.Read.val_main_call0_v0_apply,
    Ideal.ofBits_def, Ideal.ofBits_zero_f32, Ideal.mulf_def, zero_add]
  refine congrArg Ideal.sqrt (Finset.sum_congr rfl fun r _ => ?_)
  have e : Cert.ReferenceIdeal.Read.idx_main_call0_v1 (ix1 c) r = ix2 r c := funext fun a => Fin.ext (by
    match a with
    | ⟨0, _⟩ => rfl
    | ⟨1, _⟩ => rfl)
  rw [e]

/-! ## The feature table -/

/-- The plain sum over the contracted positions IS the host's matrix product with the pruned, transposed weight. -/
theorem prod_eq_hR (x : FVec Ideal S50000x256 .f32) (W : FVec Ideal S256x256 .f32) :
    prodArr x (weffT (F := Ideal) (colNorm (F := Ideal) x) W) = hR (F := Ideal) x W := by
  funext i
  obtain ⟨r, c, rfl⟩ : ∃ (r : Fin 50000) (c : Fin 256), i = ix2 r c := ⟨i 0, i 1, eq_ix2 i⟩
  show prodArr x (weffT (F := Ideal) (colNorm (F := Ideal) x) W) (ix2 r c)
    = Cert.ReferenceIdeal.Read.val_main_v14 (F := Ideal) x W (ix2 r c)
  rw [Cert.ReferenceIdeal.Read.val_main_v14_apply, prodArr_apply]
  refine Finset.sum_congr rfl fun k _ => ?_
  have el : Cert.ReferenceIdeal.Read.lidx_main_v14 (ix2 r c) k = ix2 r k := funext fun a => Fin.ext (by
    match a with
    | ⟨0, _⟩ => rfl
    | ⟨1, _⟩ => rfl)
  have er : Cert.ReferenceIdeal.Read.ridx_main_v14 (ix2 r c) k = ix2 k c := funext fun a => Fin.ext (by
    match a with
    | ⟨0, _⟩ => rfl
    | ⟨1, _⟩ => rfl)
  rw [el, er]
  rfl

/-- Every entry of the pruned, transposed weight is `0` or an entry of `W`: a real when `W`'s are. -/
theorem weffT_real (n : FVec Ideal S256 .f32) (W : FVec Ideal S256x256 .f32) (HW : ∀ i, ∃ r : ℝ, W i = (r : EReal)) :
    ∀ i, ∃ r : ℝ, weffT (F := Ideal) n W i = (r : EReal) := by
  intro i
  obtain ⟨a, b, rfl⟩ : ∃ (a b : Fin 256), i = ix2 a b := ⟨i 0, i 1, eq_ix2 i⟩
  rw [show weffT (F := Ideal) n W (ix2 a b)
      = Scalar.select ((broadcastInDim S256x256 ![] bcast_S_S256x256
          (cmpf (F := Ideal) .ogt (normAll (F := Ideal) n) (constant (F := Ideal) S_ .f32 0x322BCC77#32))) (ix2 b a))
          (pruned (F := Ideal) n W (ix2 b a)) (W (ix2 b a)) from
    transpose_ix2_apply (a := 256) (b := 256) _ transposes_S256x256_S256x256_1_0 a b]
  rw [select_bit]
  split
  · rw [show pruned (F := Ideal) n W (ix2 b a)
        = Scalar.select ((cmpf (F := Ideal) .olt (Host.absf (F := Ideal) W)
            (broadcastInDim S256x256 ![0, 1] bcast_S1x256_S256x256_0_1 (broadcastInDim S1x256 ![1] bcast_S256_S1x256_1
              (Host.divf (F := Ideal) (broadcastInDim S256 ![] bcast_S_S256
                (mulf (F := Ideal) (constant (F := Ideal) S_ .f32 0x3DCCCCCD#32) (normAll (F := Ideal) n))) n)))) (ix2 b a))
            (Ideal.ofBits .f32 0x00000000#32) (W (ix2 b a)) from rfl, select_bit]
    split
    · exact ⟨0, Ideal.ofBits_zero_f32⟩
    · exact HW _
  · exact HW _

/-- A sum over the contracted positions of products of reals is a real. -/
theorem prod_real (X : S50000x256.Idx → Ideal .f32) (Wt : S256x256.Idx → Ideal .f32)
    (HX : ∀ i, ∃ r : ℝ, X i = (r : EReal)) (HWt : ∀ i, ∃ r : ℝ, Wt i = (r : EReal)) :
    ∀ i, ∃ r : ℝ, prodArr X Wt i = (r : EReal) := by
  intro i
  choose xr hxr using HX
  choose wr hwr using HWt
  refine ⟨∑ k : Fin 256, xr (ix2 (i 0) k) * wr (ix2 k (i 1)), ?_⟩
  rw [prodArr_apply, Cert.NormLaw.coe_sum]
  exact Finset.sum_congr rfl fun k _ => by rw [hxr, hwr, EReal.coe_mul]

/-! ## The result buffer -/

variable (m : (ℓ : Loc nD τ sig) → Buf (Elt Ideal) ℓ) (ρ : Dev nD → PrngReg)

/-- The second region's weight operand is the reference's pruned, transposed weight of the arguments. -/
theorem entry_weight (c : Dev nD) :
    (W8 m ρ c (Proc.devRef .tc main_v15) : S256x256.Idx → EReal)
      = weffT (F := Ideal) (colNorm (F := Ideal) (m ((c : Thread nD τ).loc main_arg0))) (m ((c : Thread nD τ).loc main_arg4)) := by
  refine (W8_weight m ρ c).trans (congrArg₂ (weffT (F := Ideal)) ?_ (W1_arg4 m ρ c))
  refine colnorm_eq _ _ fun q => ?_
  rw [show (W1 m ρ c (Proc.devRef .tc main_v0) : FVec Ideal S1x256 .f32) = (dat0 (F := Ideal) (V0 m ρ) c).arrAt 1 cfg0.N from
    W1_colsum m ρ c, Cert.KernelIdeal.ColSumSq.colsumsq (V0 m ρ) c (ix2 (0 : Fin 1) q)]

/-- With real `x`, real edge weights and real `W`, the result buffer after the run is the reference's result of the
    argument arrays. -/
theorem kernel_value (c : Dev nD)
    (Hx : ∀ i, ∃ r : ℝ, m ((c : Thread nD τ).loc main_arg0) i = (r : EReal))
    (Hw : ∀ i, ∃ r : ℝ, m ((c : Thread nD τ).loc main_arg2) i = (r : EReal))
    (HW : ∀ i, ∃ r : ℝ, m ((c : Thread nD τ).loc main_arg4) i = (r : EReal)) :
    W12 m ρ c (Proc.devRef .tc main_v75)
      = resultR (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hw := entry_weight m ρ c
  have hx : (V8 m ρ c (Pipeline.arrRef spec1 0) : S50000x256.Idx → EReal) = m ((c : Thread nD τ).loc main_arg0) := W8_arg0 m ρ c
  have e2 : (W9 m ρ c (Proc.devRef .tc main_v16_0) : S50000x256.Idx → EReal)
      = prodArr (m ((c : Thread nD τ).loc main_arg0))
          (weffT (F := Ideal) (colNorm (F := Ideal) (m ((c : Thread nD τ).loc main_arg0))) (m ((c : Thread nD τ).loc main_arg4))) :=
    ((W9_arr m ρ c 2).trans (Cert.KernelIdeal.MatmulValue.final2 (V8 m ρ) c)).trans (congrArg₂ prodArr hx hw)
  have e3 : (W9 m ρ c (Proc.devRef .tc main_v16_1) : S50000x1.Idx → EReal)
      = sqArr (m ((c : Thread nD τ).loc main_arg0))
          (weffT (F := Ideal) (colNorm (F := Ideal) (m ((c : Thread nD τ).loc main_arg0))) (m ((c : Thread nD τ).loc main_arg4))) :=
    ((W9_arr m ρ c 3).trans (Cert.KernelIdeal.MatmulValue.final3 (V8 m ρ) c)).trans (congrArg₂ sqArr hx hw)
  rw [W12_result, e2, e3, Cert.KernelIdeal.Args.W9_arg1, Cert.KernelIdeal.Args.W9_arg2, Cert.KernelIdeal.Args.W9_arg3,
    Cert.KernelIdeal.Args.W9_arg5]
  rw [Cert.KernelIdeal.Edges.result_eq _ _ _ _ _ _
    (prod_real _ _ Hx (weffT_real _ _ HW)) Hw (fun r => rfl), prod_eq_hR]
  -- what is left is the reference's result, its definition unfolded
  unfold Cert.ReferenceIdeal.RefChain.resultR
  rfl

end Cert.KernelIdeal.Bridge

end
-- ==== Proof.lean ====
/-
  The certificate's claims, assembled.

  The three frames: the two kernel programs' are the launch over their twelve segments; the reference, a host program,
  runs to its composed term with the arguments unchanged. The idealization rewrote no operation, so the kernel program
  is its own idealization. At the exact extended reals both programs, from memories agreeing on the arguments, end with
  the same result array: the kernel program's result buffer after the run is the reference's function of the arguments
  whenever `x`, the edge weights and `W` have real entries, which is what the precondition says.
-/
import proofs.«126413_j33191507263709_2_alg».proof.Defs
import proofs.«126413_j33191507263709_2_alg».proof.Proof.Gen.Kernel
import proofs.«126413_j33191507263709_2_alg».proof.Proof.Gen.Kernel.Frame
import proofs.«126413_j33191507263709_2_alg».proof.Proof.Gen.KernelIdeal
import proofs.«126413_j33191507263709_2_alg».proof.Proof.Gen.KernelIdeal.Frame
import proofs.«126413_j33191507263709_2_alg».proof.Proof.Gen.ReferenceIdeal
import proofs.«126413_j33191507263709_2_alg».proof.Proof.Gen.Pre_finite_inputs
import proofs.«126413_j33191507263709_2_alg».proof.Proof.Gen.ReferenceIdeal.Run
import proofs.«126413_j33191507263709_2_alg».proof.Proof.Gen.ReferenceIdeal.Read
import proofs.«126413_j33191507263709_2_alg».proof.Proof.KernelRun
import proofs.«126413_j33191507263709_2_alg».proof.Proof.RefChain
import proofs.«126413_j33191507263709_2_alg».proof.Proof.Finite
import proofs.«126413_j33191507263709_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with one result array: the reference's function of the (agreeing) arguments. -/
theorem algebraic : Cert.algebraic_KernelIdeal_ReferenceIdeal := by
  intro m ρ m' ρ' hpre hagree
  refine ⟨fun c => Cert.ReferenceIdeal.RefChain.resultR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel program: its result buffer at the last boundary's contents, read through the bridge
    refine (θ_run Cert.KernelIdeal.defs _ _).mono (fun _ h c => ⟨(h c).1.trans ?_, (h c).2⟩)
      (Cert.KernelIdeal.Run.run_result (F := Ideal) m ρ)
    obtain ⟨Hx, Hw, HW⟩ := Cert.Pre_finite_inputs.Finite.reals_of_pre _ _ _ _ _ _ (hpre c)
    exact Cert.KernelIdeal.Bridge.kernel_value m ρ c Hx Hw HW
  · -- the reference: its run's composed term, the arguments' agreement rewritten
    refine (θ_run Cert.ReferenceIdeal.defs _ _).mono (fun _ h c => ⟨(h c).1.trans ?_, (h c).2⟩)
      (Cert.ReferenceIdeal.Value.run (F := Ideal) m' ρ')
    rw [Cert.ReferenceIdeal.RefChain.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
